-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128000x3 : Shape := ⟨2, ![128000, 3]⟩
abbrev S128000 : Shape := ⟨1, ![128000]⟩
abbrev S_ : Shape := ⟨0, ![]⟩

class Facts : Prop where
  bcast_S_S128000x3 : S_.BroadcastsInDim S128000x3 (![] : Fin 0 → Fin S128000x3.rank)
  reducesTo_S128000x3_S_d0_1 : S128000x3.ReducesTo [0, 1] S_
  h_S_ : 0 < S_.numel

variable [Facts]

def fn {F : FTy → Type} [FloatOps F] (main_arg0 : FVec F S128000x3 .f32) (main_arg1 : IVec S128000 32) : IVec S_ 1 :=
  let main_v0 : FVec F S128000x3 .f32 := Host.absf main_arg0
  let main_cst : FVec F S_ .f32 := constant S_ .f32 0x7F800000#32
  let main_v1 : FVec F S128000x3 .f32 := broadcastInDim S128000x3 ![] bcast_S_S128000x3 main_cst
  let main_v2 : IVec S128000x3 1 := cmpf .olt main_v0 main_v1
  let main_c : IVec S_ 1 := constantI S_ 1 1#1
  let main_v3 : IVec S_ 1 := (fun x v => Host.reduce IntOp.andi x v reducesTo_S128000x3_S_d0_1 h_S_) main_v2 main_c
  main_v3
-- ==== Kernel.lean ====
abbrev S128000x3 : Shape := ⟨2, ![128000, 3]⟩
abbrev S128000 : Shape := ⟨1, ![128000]⟩
abbrev S64 : Shape := ⟨1, ![64]⟩
abbrev S64x63 : Shape := ⟨2, ![64, 63]⟩
abbrev S4032 : Shape := ⟨1, ![4032]⟩
abbrev S63 : Shape := ⟨1, ![63]⟩
abbrev S1x63 : Shape := ⟨2, ![1, 63]⟩
abbrev S64x1 : Shape := ⟨2, ![64, 1]⟩
abbrev S2000 : Shape := ⟨1, ![2000]⟩
abbrev S_ : Shape := ⟨0, ![]⟩
abbrev S2000x1 : Shape := ⟨2, ![2000, 1]⟩
abbrev S1x4032 : Shape := ⟨2, ![1, 4032]⟩
abbrev S2000x4032 : Shape := ⟨2, ![2000, 4032]⟩
abbrev S8064000 : Shape := ⟨1, ![8064000]⟩
abbrev S1x8064000 : Shape := ⟨2, ![1, 8064000]⟩
abbrev S2x8064000 : Shape := ⟨2, ![2, 8064000]⟩
abbrev S8064000x3 : Shape := ⟨2, ![8064000, 3]⟩
abbrev S8064000x1 : Shape := ⟨2, ![8064000, 1]⟩
abbrev S256x3 : Shape := ⟨2, ![256, 3]⟩
abbrev S16128x3 : Shape := ⟨2, ![16128, 3]⟩
abbrev S16128x1 : Shape := ⟨2, ![16128, 1]⟩
abbrev S64x3 : Shape := ⟨2, ![64, 3]⟩
abbrev S1x3 : Shape := ⟨2, ![1, 3]⟩
abbrev S63x3 : Shape := ⟨2, ![63, 3]⟩
abbrev S62x3 : Shape := ⟨2, ![62, 3]⟩
abbrev S2x3 : Shape := ⟨2, ![2, 3]⟩
abbrev S61x3 : Shape := ⟨2, ![61, 3]⟩
abbrev S3x3 : Shape := ⟨2, ![3, 3]⟩
abbrev S60x3 : Shape := ⟨2, ![60, 3]⟩
abbrev S4x3 : Shape := ⟨2, ![4, 3]⟩
abbrev S59x3 : Shape := ⟨2, ![59, 3]⟩
abbrev S5x3 : Shape := ⟨2, ![5, 3]⟩
abbrev S58x3 : Shape := ⟨2, ![58, 3]⟩
abbrev S6x3 : Shape := ⟨2, ![6, 3]⟩
abbrev S57x3 : Shape := ⟨2, ![57, 3]⟩
abbrev S7x3 : Shape := ⟨2, ![7, 3]⟩
abbrev S56x3 : Shape := ⟨2, ![56, 3]⟩
abbrev S8x3 : Shape := ⟨2, ![8, 3]⟩
abbrev S55x3 : Shape := ⟨2, ![55, 3]⟩
abbrev S9x3 : Shape := ⟨2, ![9, 3]⟩
abbrev S54x3 : Shape := ⟨2, ![54, 3]⟩
abbrev S10x3 : Shape := ⟨2, ![10, 3]⟩
abbrev S53x3 : Shape := ⟨2, ![53, 3]⟩
abbrev S11x3 : Shape := ⟨2, ![11, 3]⟩
abbrev S52x3 : Shape := ⟨2, ![52, 3]⟩
abbrev S12x3 : Shape := ⟨2, ![12, 3]⟩
abbrev S51x3 : Shape := ⟨2, ![51, 3]⟩
abbrev S13x3 : Shape := ⟨2, ![13, 3]⟩
abbrev S50x3 : Shape := ⟨2, ![50, 3]⟩
abbrev S14x3 : Shape := ⟨2, ![14, 3]⟩
abbrev S49x3 : Shape := ⟨2, ![49, 3]⟩
abbrev S15x3 : Shape := ⟨2, ![15, 3]⟩
abbrev S48x3 : Shape := ⟨2, ![48, 3]⟩
abbrev S16x3 : Shape := ⟨2, ![16, 3]⟩
abbrev S47x3 : Shape := ⟨2, ![47, 3]⟩
abbrev S17x3 : Shape := ⟨2, ![17, 3]⟩
abbrev S46x3 : Shape := ⟨2, ![46, 3]⟩
abbrev S18x3 : Shape := ⟨2, ![18, 3]⟩
abbrev S45x3 : Shape := ⟨2, ![45, 3]⟩
abbrev S19x3 : Shape := ⟨2, ![19, 3]⟩
abbrev S44x3 : Shape := ⟨2, ![44, 3]⟩
abbrev S20x3 : Shape := ⟨2, ![20, 3]⟩
abbrev S43x3 : Shape := ⟨2, ![43, 3]⟩
abbrev S21x3 : Shape := ⟨2, ![21, 3]⟩
abbrev S42x3 : Shape := ⟨2, ![42, 3]⟩
abbrev S22x3 : Shape := ⟨2, ![22, 3]⟩
abbrev S41x3 : Shape := ⟨2, ![41, 3]⟩
abbrev S23x3 : Shape := ⟨2, ![23, 3]⟩
abbrev S40x3 : Shape := ⟨2, ![40, 3]⟩
abbrev S24x3 : Shape := ⟨2, ![24, 3]⟩
abbrev S39x3 : Shape := ⟨2, ![39, 3]⟩
abbrev S25x3 : Shape := ⟨2, ![25, 3]⟩
abbrev S38x3 : Shape := ⟨2, ![38, 3]⟩
abbrev S26x3 : Shape := ⟨2, ![26, 3]⟩
abbrev S37x3 : Shape := ⟨2, ![37, 3]⟩
abbrev S27x3 : Shape := ⟨2, ![27, 3]⟩
abbrev S36x3 : Shape := ⟨2, ![36, 3]⟩
abbrev S28x3 : Shape := ⟨2, ![28, 3]⟩
abbrev S35x3 : Shape := ⟨2, ![35, 3]⟩
abbrev S29x3 : Shape := ⟨2, ![29, 3]⟩
abbrev S34x3 : Shape := ⟨2, ![34, 3]⟩
abbrev S30x3 : Shape := ⟨2, ![30, 3]⟩
abbrev S33x3 : Shape := ⟨2, ![33, 3]⟩
abbrev S31x3 : Shape := ⟨2, ![31, 3]⟩
abbrev S32x3 : Shape := ⟨2, ![32, 3]⟩
abbrev S4032x3 : Shape := ⟨2, ![4032, 3]⟩
abbrev S16128 : Shape := ⟨1, ![16128]⟩

abbrev nBuf : Space → Nat
  | .hbm => 37
  | .vmem => 6
  | .smem => 0
  | _ => 0

abbrev bufTy : (tb : Table) → Fin (tcTables nBuf tb) → BufTy
  | .hbm, ⟨0, _⟩ => ⟨S128000x3, .f32⟩
  | .hbm, ⟨1, _⟩ => ⟨S128000, .i32⟩
  | .hbm, ⟨2, _⟩ => ⟨S64, .i32⟩
  | .hbm, ⟨3, _⟩ => ⟨S64x63, .i32⟩
  | .hbm, ⟨4, _⟩ => ⟨S4032, .i32⟩
  | .hbm, ⟨5, _⟩ => ⟨S63, .i32⟩
  | .hbm, ⟨6, _⟩ => ⟨S1x63, .i32⟩
  | .hbm, ⟨7, _⟩ => ⟨S1x63, .i32⟩
  | .hbm, ⟨8, _⟩ => ⟨S64, .i32⟩
  | .hbm, ⟨9, _⟩ => ⟨S64x1, .i32⟩
  | .hbm, ⟨10, _⟩ => ⟨S64x63, .i32⟩
  | .hbm, ⟨11, _⟩ => ⟨S64x63, .i32⟩
  | .hbm, ⟨12, _⟩ => ⟨S64x63, .i1⟩
  | .hbm, ⟨13, _⟩ => ⟨S64x63, .i32⟩
  | .hbm, ⟨14, _⟩ => ⟨S64x63, .i32⟩
  | .hbm, ⟨15, _⟩ => ⟨S64x63, .i32⟩
  | .hbm, ⟨16, _⟩ => ⟨S4032, .i32⟩
  | .hbm, ⟨17, _⟩ => ⟨S2000, .i32⟩
  | .hbm, ⟨18, _⟩ => ⟨S_, .i32⟩
  | .hbm, ⟨19, _⟩ => ⟨S2000, .i32⟩
  | .hbm, ⟨20, _⟩ => ⟨S2000, .i32⟩
  | .hbm, ⟨21, _⟩ => ⟨S2000x1, .i32⟩
  | .hbm, ⟨22, _⟩ => ⟨S1x4032, .i32⟩
  | .hbm, ⟨23, _⟩ => ⟨S2000x4032, .i32⟩
  | .hbm, ⟨24, _⟩ => ⟨S2000x4032, .i32⟩
  | .hbm, ⟨25, _⟩ => ⟨S2000x4032, .i32⟩
  | .hbm, ⟨26, _⟩ => ⟨S8064000, .i32⟩
  | .hbm, ⟨27, _⟩ => ⟨S1x4032, .i32⟩
  | .hbm, ⟨28, _⟩ => ⟨S2000x4032, .i32⟩
  | .hbm, ⟨29, _⟩ => ⟨S2000x4032, .i32⟩
  | .hbm, ⟨30, _⟩ => ⟨S2000x4032, .i32⟩
  | .hbm, ⟨31, _⟩ => ⟨S8064000, .i32⟩
  | .hbm, ⟨32, _⟩ => ⟨S1x8064000, .i32⟩
  | .hbm, ⟨33, _⟩ => ⟨S1x8064000, .i32⟩
  | .hbm, ⟨34, _⟩ => ⟨S2x8064000, .i32⟩
  | .hbm, ⟨35, _⟩ => ⟨S8064000x3, .f32⟩
  | .hbm, ⟨36, _⟩ => ⟨S8064000x1, .f32⟩
  | .local _ .vmem, ⟨0, _⟩ => ⟨S256x3, .f32⟩
  | .local _ .vmem, ⟨1, _⟩ => ⟨S256x3, .f32⟩
  | .local _ .vmem, ⟨2, _⟩ => ⟨S16128x3, .f32⟩
  | .local _ .vmem, ⟨3, _⟩ => ⟨S16128x3, .f32⟩
  | .local _ .vmem, ⟨4, _⟩ => ⟨S16128x1, .f32⟩
  | .local _ .vmem, ⟨5, _⟩ => ⟨S16128x1, .f32⟩
  | _, _ => ⟨S128000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32_0 : Ref sig .tc := ⟨.hbm, 35, rfl⟩
abbrev main_v32_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S64x63_0 : S64.BroadcastsInDim S64x63 (![0] : Fin 1 → Fin S64x63.rank)
  shapeCasts_S64x63_S4032 : S64x63.ShapeCasts S4032
  bcast_S63_S1x63_1 : S63.BroadcastsInDim S1x63 (![1] : Fin 1 → Fin S1x63.rank)
  bcast_S64_S64x1_0 : S64.BroadcastsInDim S64x1 (![0] : Fin 1 → Fin S64x1.rank)
  bcast_S1x63_S64x63_0_1 : S1x63.BroadcastsInDim S64x63 (![0, 1] : Fin 2 → Fin S64x63.rank)
  bcast_S64x1_S64x63_0_1 : S64x1.BroadcastsInDim S64x63 (![0, 1] : Fin 2 → Fin S64x63.rank)
  natLt_1_32 : 1 < 32
  bcast_S_S2000 : S_.BroadcastsInDim S2000 (![] : Fin 0 → Fin S2000.rank)
  bcast_S2000_S2000x1_0 : S2000.BroadcastsInDim S2000x1 (![0] : Fin 1 → Fin S2000x1.rank)
  bcast_S4032_S1x4032_1 : S4032.BroadcastsInDim S1x4032 (![1] : Fin 1 → Fin S1x4032.rank)
  bcast_S2000x1_S2000x4032_0_1 : S2000x1.BroadcastsInDim S2000x4032 (![0, 1] : Fin 2 → Fin S2000x4032.rank)
  bcast_S1x4032_S2000x4032_0_1 : S1x4032.BroadcastsInDim S2000x4032 (![0, 1] : Fin 2 → Fin S2000x4032.rank)
  shapeCasts_S2000x4032_S8064000 : S2000x4032.ShapeCasts S8064000
  bcast_S8064000_S1x8064000_1 : S8064000.BroadcastsInDim S1x8064000 (![1] : Fin 1 → Fin S1x8064000.rank)
  concatenates_S1x8064000_S1x8064000_S2x8064000_d0 : Shape.Concatenates [S1x8064000, S1x8064000] S2x8064000 0
  inb_S256x3_S64x3_0_0 : ∀ a, (![0, 0] : Fin 2 → Nat) a + S64x3.size a ≤ S256x3.size a
  h_S64x3 : 0 < S64x3.numel
  slices_S64x3_o0_0_S1x3 : S64x3.Slices ![0, 0] S1x3
  slices_S64x3_o1_0_S63x3 : S64x3.Slices ![1, 0] S63x3
  broadcasts_S1x3_S63x3 : S1x3.Broadcasts S63x3
  slices_S64x3_o1_0_S1x3 : S64x3.Slices ![1, 0] S1x3
  slices_S64x3_o2_0_S62x3 : S64x3.Slices ![2, 0] S62x3
  concatenates_S1x3_S62x3_S63x3_d0 : Shape.Concatenates [S1x3, S62x3] S63x3 0
  slices_S64x3_o2_0_S1x3 : S64x3.Slices ![2, 0] S1x3
  slices_S64x3_o0_0_S2x3 : S64x3.Slices ![0, 0] S2x3
  slices_S64x3_o3_0_S61x3 : S64x3.Slices ![3, 0] S61x3
  concatenates_S2x3_S61x3_S63x3_d0 : Shape.Concatenates [S2x3, S61x3] S63x3 0
  slices_S64x3_o3_0_S1x3 : S64x3.Slices ![3, 0] S1x3
  slices_S64x3_o0_0_S3x3 : S64x3.Slices ![0, 0] S3x3
  slices_S64x3_o4_0_S60x3 : S64x3.Slices ![4, 0] S60x3
  concatenates_S3x3_S60x3_S63x3_d0 : Shape.Concatenates [S3x3, S60x3] S63x3 0
  slices_S64x3_o4_0_S1x3 : S64x3.Slices ![4, 0] S1x3
  slices_S64x3_o0_0_S4x3 : S64x3.Slices ![0, 0] S4x3
  slices_S64x3_o5_0_S59x3 : S64x3.Slices ![5, 0] S59x3
  concatenates_S4x3_S59x3_S63x3_d0 : Shape.Concatenates [S4x3, S59x3] S63x3 0
  slices_S64x3_o5_0_S1x3 : S64x3.Slices ![5, 0] S1x3
  slices_S64x3_o0_0_S5x3 : S64x3.Slices ![0, 0] S5x3
  slices_S64x3_o6_0_S58x3 : S64x3.Slices ![6, 0] S58x3
  concatenates_S5x3_S58x3_S63x3_d0 : Shape.Concatenates [S5x3, S58x3] S63x3 0
  slices_S64x3_o6_0_S1x3 : S64x3.Slices ![6, 0] S1x3
  slices_S64x3_o0_0_S6x3 : S64x3.Slices ![0, 0] S6x3
  slices_S64x3_o7_0_S57x3 : S64x3.Slices ![7, 0] S57x3
  concatenates_S6x3_S57x3_S63x3_d0 : Shape.Concatenates [S6x3, S57x3] S63x3 0
  slices_S64x3_o7_0_S1x3 : S64x3.Slices ![7, 0] S1x3
  slices_S64x3_o0_0_S7x3 : S64x3.Slices ![0, 0] S7x3
  slices_S64x3_o8_0_S56x3 : S64x3.Slices ![8, 0] S56x3
  concatenates_S7x3_S56x3_S63x3_d0 : Shape.Concatenates [S7x3, S56x3] S63x3 0
  slices_S64x3_o8_0_S1x3 : S64x3.Slices ![8, 0] S1x3
  slices_S64x3_o0_0_S8x3 : S64x3.Slices ![0, 0] S8x3
  slices_S64x3_o9_0_S55x3 : S64x3.Slices ![9, 0] S55x3
  concatenates_S8x3_S55x3_S63x3_d0 : Shape.Concatenates [S8x3, S55x3] S63x3 0
  slices_S64x3_o9_0_S1x3 : S64x3.Slices ![9, 0] S1x3
  slices_S64x3_o0_0_S9x3 : S64x3.Slices ![0, 0] S9x3
  slices_S64x3_o10_0_S54x3 : S64x3.Slices ![10, 0] S54x3
  concatenates_S9x3_S54x3_S63x3_d0 : Shape.Concatenates [S9x3, S54x3] S63x3 0
  slices_S64x3_o10_0_S1x3 : S64x3.Slices ![10, 0] S1x3
  slices_S64x3_o0_0_S10x3 : S64x3.Slices ![0, 0] S10x3
  slices_S64x3_o11_0_S53x3 : S64x3.Slices ![11, 0] S53x3
  concatenates_S10x3_S53x3_S63x3_d0 : Shape.Concatenates [S10x3, S53x3] S63x3 0
  slices_S64x3_o11_0_S1x3 : S64x3.Slices ![11, 0] S1x3
  slices_S64x3_o0_0_S11x3 : S64x3.Slices ![0, 0] S11x3
  slices_S64x3_o12_0_S52x3 : S64x3.Slices ![12, 0] S52x3
  concatenates_S11x3_S52x3_S63x3_d0 : Shape.Concatenates [S11x3, S52x3] S63x3 0
  slices_S64x3_o12_0_S1x3 : S64x3.Slices ![12, 0] S1x3
  slices_S64x3_o0_0_S12x3 : S64x3.Slices ![0, 0] S12x3
  slices_S64x3_o13_0_S51x3 : S64x3.Slices ![13, 0] S51x3
  concatenates_S12x3_S51x3_S63x3_d0 : Shape.Concatenates [S12x3, S51x3] S63x3 0
  slices_S64x3_o13_0_S1x3 : S64x3.Slices ![13, 0] S1x3
  slices_S64x3_o0_0_S13x3 : S64x3.Slices ![0, 0] S13x3
  slices_S64x3_o14_0_S50x3 : S64x3.Slices ![14, 0] S50x3
  concatenates_S13x3_S50x3_S63x3_d0 : Shape.Concatenates [S13x3, S50x3] S63x3 0
  slices_S64x3_o14_0_S1x3 : S64x3.Slices ![14, 0] S1x3
  slices_S64x3_o0_0_S14x3 : S64x3.Slices ![0, 0] S14x3
  slices_S64x3_o15_0_S49x3 : S64x3.Slices ![15, 0] S49x3
  concatenates_S14x3_S49x3_S63x3_d0 : Shape.Concatenates [S14x3, S49x3] S63x3 0
  slices_S64x3_o15_0_S1x3 : S64x3.Slices ![15, 0] S1x3
  slices_S64x3_o0_0_S15x3 : S64x3.Slices ![0, 0] S15x3
  slices_S64x3_o16_0_S48x3 : S64x3.Slices ![16, 0] S48x3
  concatenates_S15x3_S48x3_S63x3_d0 : Shape.Concatenates [S15x3, S48x3] S63x3 0
  slices_S64x3_o16_0_S1x3 : S64x3.Slices ![16, 0] S1x3
  slices_S64x3_o0_0_S16x3 : S64x3.Slices ![0, 0] S16x3
  slices_S64x3_o17_0_S47x3 : S64x3.Slices ![17, 0] S47x3
  concatenates_S16x3_S47x3_S63x3_d0 : Shape.Concatenates [S16x3, S47x3] S63x3 0
  slices_S64x3_o17_0_S1x3 : S64x3.Slices ![17, 0] S1x3
  slices_S64x3_o0_0_S17x3 : S64x3.Slices ![0, 0] S17x3
  slices_S64x3_o18_0_S46x3 : S64x3.Slices ![18, 0] S46x3
  concatenates_S17x3_S46x3_S63x3_d0 : Shape.Concatenates [S17x3, S46x3] S63x3 0
  slices_S64x3_o18_0_S1x3 : S64x3.Slices ![18, 0] S1x3
  slices_S64x3_o0_0_S18x3 : S64x3.Slices ![0, 0] S18x3
  slices_S64x3_o19_0_S45x3 : S64x3.Slices ![19, 0] S45x3
  concatenates_S18x3_S45x3_S63x3_d0 : Shape.Concatenates [S18x3, S45x3] S63x3 0
  slices_S64x3_o19_0_S1x3 : S64x3.Slices ![19, 0] S1x3
  slices_S64x3_o0_0_S19x3 : S64x3.Slices ![0, 0] S19x3
  slices_S64x3_o20_0_S44x3 : S64x3.Slices ![20, 0] S44x3
  concatenates_S19x3_S44x3_S63x3_d0 : Shape.Concatenates [S19x3, S44x3] S63x3 0
  slices_S64x3_o20_0_S1x3 : S64x3.Slices ![20, 0] S1x3
  slices_S64x3_o0_0_S20x3 : S64x3.Slices ![0, 0] S20x3
  slices_S64x3_o21_0_S43x3 : S64x3.Slices ![21, 0] S43x3
  concatenates_S20x3_S43x3_S63x3_d0 : Shape.Concatenates [S20x3, S43x3] S63x3 0
  slices_S64x3_o21_0_S1x3 : S64x3.Slices ![21, 0] S1x3
  slices_S64x3_o0_0_S21x3 : S64x3.Slices ![0, 0] S21x3
  slices_S64x3_o22_0_S42x3 : S64x3.Slices ![22, 0] S42x3
  concatenates_S21x3_S42x3_S63x3_d0 : Shape.Concatenates [S21x3, S42x3] S63x3 0
  slices_S64x3_o22_0_S1x3 : S64x3.Slices ![22, 0] S1x3
  slices_S64x3_o0_0_S22x3 : S64x3.Slices ![0, 0] S22x3
  slices_S64x3_o23_0_S41x3 : S64x3.Slices ![23, 0] S41x3
  concatenates_S22x3_S41x3_S63x3_d0 : Shape.Concatenates [S22x3, S41x3] S63x3 0
  slices_S64x3_o23_0_S1x3 : S64x3.Slices ![23, 0] S1x3
  slices_S64x3_o0_0_S23x3 : S64x3.Slices ![0, 0] S23x3
  slices_S64x3_o24_0_S40x3 : S64x3.Slices ![24, 0] S40x3
  concatenates_S23x3_S40x3_S63x3_d0 : Shape.Concatenates [S23x3, S40x3] S63x3 0
  slices_S64x3_o24_0_S1x3 : S64x3.Slices ![24, 0] S1x3
  slices_S64x3_o0_0_S24x3 : S64x3.Slices ![0, 0] S24x3
  slices_S64x3_o25_0_S39x3 : S64x3.Slices ![25, 0] S39x3
  concatenates_S24x3_S39x3_S63x3_d0 : Shape.Concatenates [S24x3, S39x3] S63x3 0
  slices_S64x3_o25_0_S1x3 : S64x3.Slices ![25, 0] S1x3
  slices_S64x3_o0_0_S25x3 : S64x3.Slices ![0, 0] S25x3
  slices_S64x3_o26_0_S38x3 : S64x3.Slices ![26, 0] S38x3
  concatenates_S25x3_S38x3_S63x3_d0 : Shape.Concatenates [S25x3, S38x3] S63x3 0
  slices_S64x3_o26_0_S1x3 : S64x3.Slices ![26, 0] S1x3
  slices_S64x3_o0_0_S26x3 : S64x3.Slices ![0, 0] S26x3
  slices_S64x3_o27_0_S37x3 : S64x3.Slices ![27, 0] S37x3
  concatenates_S26x3_S37x3_S63x3_d0 : Shape.Concatenates [S26x3, S37x3] S63x3 0
  slices_S64x3_o27_0_S1x3 : S64x3.Slices ![27, 0] S1x3
  slices_S64x3_o0_0_S27x3 : S64x3.Slices ![0, 0] S27x3
  slices_S64x3_o28_0_S36x3 : S64x3.Slices ![28, 0] S36x3
  concatenates_S27x3_S36x3_S63x3_d0 : Shape.Concatenates [S27x3, S36x3] S63x3 0
  slices_S64x3_o28_0_S1x3 : S64x3.Slices ![28, 0] S1x3
  slices_S64x3_o0_0_S28x3 : S64x3.Slices ![0, 0] S28x3
  slices_S64x3_o29_0_S35x3 : S64x3.Slices ![29, 0] S35x3
  concatenates_S28x3_S35x3_S63x3_d0 : Shape.Concatenates [S28x3, S35x3] S63x3 0
  slices_S64x3_o29_0_S1x3 : S64x3.Slices ![29, 0] S1x3
  slices_S64x3_o0_0_S29x3 : S64x3.Slices ![0, 0] S29x3
  slices_S64x3_o30_0_S34x3 : S64x3.Slices ![30, 0] S34x3
  concatenates_S29x3_S34x3_S63x3_d0 : Shape.Concatenates [S29x3, S34x3] S63x3 0
  slices_S64x3_o30_0_S1x3 : S64x3.Slices ![30, 0] S1x3
  slices_S64x3_o0_0_S30x3 : S64x3.Slices ![0, 0] S30x3
  slices_S64x3_o31_0_S33x3 : S64x3.Slices ![31, 0] S33x3
  concatenates_S30x3_S33x3_S63x3_d0 : Shape.Concatenates [S30x3, S33x3] S63x3 0
  slices_S64x3_o31_0_S1x3 : S64x3.Slices ![31, 0] S1x3
  slices_S64x3_o0_0_S31x3 : S64x3.Slices ![0, 0] S31x3
  slices_S64x3_o32_0_S32x3 : S64x3.Slices ![32, 0] S32x3
  concatenates_S31x3_S32x3_S63x3_d0 : Shape.Concatenates [S31x3, S32x3] S63x3 0
  slices_S64x3_o32_0_S1x3 : S64x3.Slices ![32, 0] S1x3
  slices_S64x3_o0_0_S32x3 : S64x3.Slices ![0, 0] S32x3
  slices_S64x3_o33_0_S31x3 : S64x3.Slices ![33, 0] S31x3
  concatenates_S32x3_S31x3_S63x3_d0 : Shape.Concatenates [S32x3, S31x3] S63x3 0
  slices_S64x3_o33_0_S1x3 : S64x3.Slices ![33, 0] S1x3
  slices_S64x3_o0_0_S33x3 : S64x3.Slices ![0, 0] S33x3
  slices_S64x3_o34_0_S30x3 : S64x3.Slices ![34, 0] S30x3
  concatenates_S33x3_S30x3_S63x3_d0 : Shape.Concatenates [S33x3, S30x3] S63x3 0
  slices_S64x3_o34_0_S1x3 : S64x3.Slices ![34, 0] S1x3
  slices_S64x3_o0_0_S34x3 : S64x3.Slices ![0, 0] S34x3
  slices_S64x3_o35_0_S29x3 : S64x3.Slices ![35, 0] S29x3
  concatenates_S34x3_S29x3_S63x3_d0 : Shape.Concatenates [S34x3, S29x3] S63x3 0
  slices_S64x3_o35_0_S1x3 : S64x3.Slices ![35, 0] S1x3
  slices_S64x3_o0_0_S35x3 : S64x3.Slices ![0, 0] S35x3
  slices_S64x3_o36_0_S28x3 : S64x3.Slices ![36, 0] S28x3
  concatenates_S35x3_S28x3_S63x3_d0 : Shape.Concatenates [S35x3, S28x3] S63x3 0
  slices_S64x3_o36_0_S1x3 : S64x3.Slices ![36, 0] S1x3
  slices_S64x3_o0_0_S36x3 : S64x3.Slices ![0, 0] S36x3
  slices_S64x3_o37_0_S27x3 : S64x3.Slices ![37, 0] S27x3
  concatenates_S36x3_S27x3_S63x3_d0 : Shape.Concatenates [S36x3, S27x3] S63x3 0
  slices_S64x3_o37_0_S1x3 : S64x3.Slices ![37, 0] S1x3
  slices_S64x3_o0_0_S37x3 : S64x3.Slices ![0, 0] S37x3
  slices_S64x3_o38_0_S26x3 : S64x3.Slices ![38, 0] S26x3
  concatenates_S37x3_S26x3_S63x3_d0 : Shape.Concatenates [S37x3, S26x3] S63x3 0
  slices_S64x3_o38_0_S1x3 : S64x3.Slices ![38, 0] S1x3
  slices_S64x3_o0_0_S38x3 : S64x3.Slices ![0, 0] S38x3
  slices_S64x3_o39_0_S25x3 : S64x3.Slices ![39, 0] S25x3
  concatenates_S38x3_S25x3_S63x3_d0 : Shape.Concatenates [S38x3, S25x3] S63x3 0
  slices_S64x3_o39_0_S1x3 : S64x3.Slices ![39, 0] S1x3
  slices_S64x3_o0_0_S39x3 : S64x3.Slices ![0, 0] S39x3
  slices_S64x3_o40_0_S24x3 : S64x3.Slices ![40, 0] S24x3
  concatenates_S39x3_S24x3_S63x3_d0 : Shape.Concatenates [S39x3, S24x3] S63x3 0
  slices_S64x3_o40_0_S1x3 : S64x3.Slices ![40, 0] S1x3
  slices_S64x3_o0_0_S40x3 : S64x3.Slices ![0, 0] S40x3
  slices_S64x3_o41_0_S23x3 : S64x3.Slices ![41, 0] S23x3
  concatenates_S40x3_S23x3_S63x3_d0 : Shape.Concatenates [S40x3, S23x3] S63x3 0
  slices_S64x3_o41_0_S1x3 : S64x3.Slices ![41, 0] S1x3
  slices_S64x3_o0_0_S41x3 : S64x3.Slices ![0, 0] S41x3
  slices_S64x3_o42_0_S22x3 : S64x3.Slices ![42, 0] S22x3
  concatenates_S41x3_S22x3_S63x3_d0 : Shape.Concatenates [S41x3, S22x3] S63x3 0
  slices_S64x3_o42_0_S1x3 : S64x3.Slices ![42, 0] S1x3
  slices_S64x3_o0_0_S42x3 : S64x3.Slices ![0, 0] S42x3
  slices_S64x3_o43_0_S21x3 : S64x3.Slices ![43, 0] S21x3
  concatenates_S42x3_S21x3_S63x3_d0 : Shape.Concatenates [S42x3, S21x3] S63x3 0
  slices_S64x3_o43_0_S1x3 : S64x3.Slices ![43, 0] S1x3
  slices_S64x3_o0_0_S43x3 : S64x3.Slices ![0, 0] S43x3
  slices_S64x3_o44_0_S20x3 : S64x3.Slices ![44, 0] S20x3
  concatenates_S43x3_S20x3_S63x3_d0 : Shape.Concatenates [S43x3, S20x3] S63x3 0
  slices_S64x3_o44_0_S1x3 : S64x3.Slices ![44, 0] S1x3
  slices_S64x3_o0_0_S44x3 : S64x3.Slices ![0, 0] S44x3
  slices_S64x3_o45_0_S19x3 : S64x3.Slices ![45, 0] S19x3
  concatenates_S44x3_S19x3_S63x3_d0 : Shape.Concatenates [S44x3, S19x3] S63x3 0
  slices_S64x3_o45_0_S1x3 : S64x3.Slices ![45, 0] S1x3
  slices_S64x3_o0_0_S45x3 : S64x3.Slices ![0, 0] S45x3
  slices_S64x3_o46_0_S18x3 : S64x3.Slices ![46, 0] S18x3
  concatenates_S45x3_S18x3_S63x3_d0 : Shape.Concatenates [S45x3, S18x3] S63x3 0
  slices_S64x3_o46_0_S1x3 : S64x3.Slices ![46, 0] S1x3
  slices_S64x3_o0_0_S46x3 : S64x3.Slices ![0, 0] S46x3
  slices_S64x3_o47_0_S17x3 : S64x3.Slices ![47, 0] S17x3
  concatenates_S46x3_S17x3_S63x3_d0 : Shape.Concatenates [S46x3, S17x3] S63x3 0
  slices_S64x3_o47_0_S1x3 : S64x3.Slices ![47, 0] S1x3
  slices_S64x3_o0_0_S47x3 : S64x3.Slices ![0, 0] S47x3
  slices_S64x3_o48_0_S16x3 : S64x3.Slices ![48, 0] S16x3
  concatenates_S47x3_S16x3_S63x3_d0 : Shape.Concatenates [S47x3, S16x3] S63x3 0
  slices_S64x3_o48_0_S1x3 : S64x3.Slices ![48, 0] S1x3
  slices_S64x3_o0_0_S48x3 : S64x3.Slices ![0, 0] S48x3
  slices_S64x3_o49_0_S15x3 : S64x3.Slices ![49, 0] S15x3
  concatenates_S48x3_S15x3_S63x3_d0 : Shape.Concatenates [S48x3, S15x3] S63x3 0
  slices_S64x3_o49_0_S1x3 : S64x3.Slices ![49, 0] S1x3
  slices_S64x3_o0_0_S49x3 : S64x3.Slices ![0, 0] S49x3
  slices_S64x3_o50_0_S14x3 : S64x3.Slices ![50, 0] S14x3
  concatenates_S49x3_S14x3_S63x3_d0 : Shape.Concatenates [S49x3, S14x3] S63x3 0
  slices_S64x3_o50_0_S1x3 : S64x3.Slices ![50, 0] S1x3
  slices_S64x3_o0_0_S50x3 : S64x3.Slices ![0, 0] S50x3
  slices_S64x3_o51_0_S13x3 : S64x3.Slices ![51, 0] S13x3
  concatenates_S50x3_S13x3_S63x3_d0 : Shape.Concatenates [S50x3, S13x3] S63x3 0
  slices_S64x3_o51_0_S1x3 : S64x3.Slices ![51, 0] S1x3
  slices_S64x3_o0_0_S51x3 : S64x3.Slices ![0, 0] S51x3
  slices_S64x3_o52_0_S12x3 : S64x3.Slices ![52, 0] S12x3
  concatenates_S51x3_S12x3_S63x3_d0 : Shape.Concatenates [S51x3, S12x3] S63x3 0
  slices_S64x3_o52_0_S1x3 : S64x3.Slices ![52, 0] S1x3
  slices_S64x3_o0_0_S52x3 : S64x3.Slices ![0, 0] S52x3
  slices_S64x3_o53_0_S11x3 : S64x3.Slices ![53, 0] S11x3
  concatenates_S52x3_S11x3_S63x3_d0 : Shape.Concatenates [S52x3, S11x3] S63x3 0
  slices_S64x3_o53_0_S1x3 : S64x3.Slices ![53, 0] S1x3
  slices_S64x3_o0_0_S53x3 : S64x3.Slices ![0, 0] S53x3
  slices_S64x3_o54_0_S10x3 : S64x3.Slices ![54, 0] S10x3
  concatenates_S53x3_S10x3_S63x3_d0 : Shape.Concatenates [S53x3, S10x3] S63x3 0
  slices_S64x3_o54_0_S1x3 : S64x3.Slices ![54, 0] S1x3
  slices_S64x3_o0_0_S54x3 : S64x3.Slices ![0, 0] S54x3
  slices_S64x3_o55_0_S9x3 : S64x3.Slices ![55, 0] S9x3
  concatenates_S54x3_S9x3_S63x3_d0 : Shape.Concatenates [S54x3, S9x3] S63x3 0
  slices_S64x3_o55_0_S1x3 : S64x3.Slices ![55, 0] S1x3
  slices_S64x3_o0_0_S55x3 : S64x3.Slices ![0, 0] S55x3
  slices_S64x3_o56_0_S8x3 : S64x3.Slices ![56, 0] S8x3
  concatenates_S55x3_S8x3_S63x3_d0 : Shape.Concatenates [S55x3, S8x3] S63x3 0
  slices_S64x3_o56_0_S1x3 : S64x3.Slices ![56, 0] S1x3
  slices_S64x3_o0_0_S56x3 : S64x3.Slices ![0, 0] S56x3
  slices_S64x3_o57_0_S7x3 : S64x3.Slices ![57, 0] S7x3
  concatenates_S56x3_S7x3_S63x3_d0 : Shape.Concatenates [S56x3, S7x3] S63x3 0
  slices_S64x3_o57_0_S1x3 : S64x3.Slices ![57, 0] S1x3
  slices_S64x3_o0_0_S57x3 : S64x3.Slices ![0, 0] S57x3
  slices_S64x3_o58_0_S6x3 : S64x3.Slices ![58, 0] S6x3
  concatenates_S57x3_S6x3_S63x3_d0 : Shape.Concatenates [S57x3, S6x3] S63x3 0
  slices_S64x3_o58_0_S1x3 : S64x3.Slices ![58, 0] S1x3
  slices_S64x3_o0_0_S58x3 : S64x3.Slices ![0, 0] S58x3
  slices_S64x3_o59_0_S5x3 : S64x3.Slices ![59, 0] S5x3
  concatenates_S58x3_S5x3_S63x3_d0 : Shape.Concatenates [S58x3, S5x3] S63x3 0
  slices_S64x3_o59_0_S1x3 : S64x3.Slices ![59, 0] S1x3
  slices_S64x3_o0_0_S59x3 : S64x3.Slices ![0, 0] S59x3
  slices_S64x3_o60_0_S4x3 : S64x3.Slices ![60, 0] S4x3
  concatenates_S59x3_S4x3_S63x3_d0 : Shape.Concatenates [S59x3, S4x3] S63x3 0
  slices_S64x3_o60_0_S1x3 : S64x3.Slices ![60, 0] S1x3
  slices_S64x3_o0_0_S60x3 : S64x3.Slices ![0, 0] S60x3
  slices_S64x3_o61_0_S3x3 : S64x3.Slices ![61, 0] S3x3
  concatenates_S60x3_S3x3_S63x3_d0 : Shape.Concatenates [S60x3, S3x3] S63x3 0
  slices_S64x3_o61_0_S1x3 : S64x3.Slices ![61, 0] S1x3
  slices_S64x3_o0_0_S61x3 : S64x3.Slices ![0, 0] S61x3
  slices_S64x3_o62_0_S2x3 : S64x3.Slices ![62, 0] S2x3
  concatenates_S61x3_S2x3_S63x3_d0 : Shape.Concatenates [S61x3, S2x3] S63x3 0
  slices_S64x3_o62_0_S1x3 : S64x3.Slices ![62, 0] S1x3
  slices_S64x3_o0_0_S62x3 : S64x3.Slices ![0, 0] S62x3
  slices_S64x3_o63_0_S1x3 : S64x3.Slices ![63, 0] S1x3
  concatenates_S62x3_S1x3_S63x3_d0 : Shape.Concatenates [S62x3, S1x3] S63x3 0
  slices_S64x3_o0_0_S63x3 : S64x3.Slices ![0, 0] S63x3
  concatenates_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S63x3_S4032x3_d0 : Shape.Concatenates (S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: S63x3 :: []) S4032x3 0
  inb_S256x3_S64x3_64_0 : ∀ a, (![64, 0] : Fin 2 → Nat) a + S64x3.size a ≤ S256x3.size a
  inb_S256x3_S64x3_128_0 : ∀ a, (![128, 0] : Fin 2 → Nat) a + S64x3.size a ≤ S256x3.size a
  inb_S256x3_S64x3_192_0 : ∀ a, (![192, 0] : Fin 2 → Nat) a + S64x3.size a ≤ S256x3.size a
  concatenates_S4032x3_S4032x3_S4032x3_S4032x3_S16128x3_d0 : Shape.Concatenates [S4032x3, S4032x3, S4032x3, S4032x3] S16128x3 0
  inb_S16128x3_S16128x3_0_0 : ∀ a, (![0, 0] : Fin 2 → Nat) a + S16128x3.size a ≤ S16128x3.size a
  h_S16128x3 : 0 < S16128x3.numel
  reduces_S16128x3_S16128 : S16128x3.Reduces [1] S16128
  shapeCasts_S16128_S16128x1 : S16128.ShapeCasts S16128x1
  inb_S16128x1_S16128x1_0_0 : ∀ a, (![0, 0] : Fin 2 → Nat) a + S16128x1.size a ≤ S16128x1.size a
  h_S16128x1 : 0 < S16128x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S128000x3.size a
  hwx0_0 : ∀ i : grid0.Coords, EltTy.bits .f32 = 32 ∨ (Rect.block (s := S128000x3) S256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16128x3.size a ≤ S8064000x3.size a
  hwx0_1 : ∀ i : grid0.Coords, EltTy.bits .f32 = 32 ∨ (Rect.block (s := S8064000x3) S16128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16128x1.size a ≤ S8064000x1.size a
  hwx0_2 : ∀ i : grid0.Coords, EltTy.bits .f32 = 32 ∨ (Rect.block (s := S8064000x1) S16128x1.size (cc0_transform_2 i) (hinb0_2 i)).WholeWords (EltTy.packing .f32)

variable [Facts₀]

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32_0) S16128x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32_1) S16128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128000x3 : Shape := ⟨2, ![128000, 3]⟩
abbrev S128000 : Shape := ⟨1, ![128000]⟩
abbrev S64 : Shape := ⟨1, ![64]⟩
abbrev S64x63 : Shape := ⟨2, ![64, 63]⟩
abbrev S4032 : Shape := ⟨1, ![4032]⟩
abbrev S63 : Shape := ⟨1, ![63]⟩
abbrev S1x63 : Shape := ⟨2, ![1, 63]⟩
abbrev S64x1 : Shape := ⟨2, ![64, 1]⟩
abbrev S2000 : Shape := ⟨1, ![2000]⟩
abbrev S_ : Shape := ⟨0, ![]⟩
abbrev S2000x1 : Shape := ⟨2, ![2000, 1]⟩
abbrev S1x4032 : Shape := ⟨2, ![1, 4032]⟩
abbrev S2000x4032 : Shape := ⟨2, ![2000, 4032]⟩
abbrev S8064000 : Shape := ⟨1, ![8064000]⟩
abbrev S1x8064000 : Shape := ⟨2, ![1, 8064000]⟩
abbrev S2x8064000 : Shape := ⟨2, ![2, 8064000]⟩
abbrev S8064000x1 : Shape := ⟨2, ![8064000, 1]⟩
abbrev S8064000x3 : Shape := ⟨2, ![8064000, 3]⟩

abbrev nBuf : Space → Nat
  | .hbm => 63
  | .vmem => 0
  | .smem => 0
  | _ => 0

abbrev bufTy : (tb : Table) → Fin (tcTables nBuf tb) → BufTy
  | .hbm, ⟨0, _⟩ => ⟨S128000x3, .f32⟩
  | .hbm, ⟨1, _⟩ => ⟨S128000, .i32⟩
  | .hbm, ⟨2, _⟩ => ⟨S64, .i32⟩
  | .hbm, ⟨3, _⟩ => ⟨S64x63, .i32⟩
  | .hbm, ⟨4, _⟩ => ⟨S4032, .i32⟩
  | .hbm, ⟨5, _⟩ => ⟨S63, .i32⟩
  | .hbm, ⟨6, _⟩ => ⟨S1x63, .i32⟩
  | .hbm, ⟨7, _⟩ => ⟨S1x63, .i32⟩
  | .hbm, ⟨8, _⟩ => ⟨S64, .i32⟩
  | .hbm, ⟨9, _⟩ => ⟨S64x1, .i32⟩
  | .hbm, ⟨10, _⟩ => ⟨S64x63, .i32⟩
  | .hbm, ⟨11, _⟩ => ⟨S64x63, .i32⟩
  | .hbm, ⟨12, _⟩ => ⟨S64x63, .i1⟩
  | .hbm, ⟨13, _⟩ => ⟨S64x63, .i32⟩
  | .hbm, ⟨14, _⟩ => ⟨S64x63, .i32⟩
  | .hbm, ⟨15, _⟩ => ⟨S64x63, .i32⟩
  | .hbm, ⟨16, _⟩ => ⟨S4032, .i32⟩
  | .hbm, ⟨17, _⟩ => ⟨S2000, .i32⟩
  | .hbm, ⟨18, _⟩ => ⟨S_, .i32⟩
  | .hbm, ⟨19, _⟩ => ⟨S2000, .i32⟩
  | .hbm, ⟨20, _⟩ => ⟨S2000, .i32⟩
  | .hbm, ⟨21, _⟩ => ⟨S2000x1, .i32⟩
  | .hbm, ⟨22, _⟩ => ⟨S1x4032, .i32⟩
  | .hbm, ⟨23, _⟩ => ⟨S2000x4032, .i32⟩
  | .hbm, ⟨24, _⟩ => ⟨S2000x4032, .i32⟩
  | .hbm, ⟨25, _⟩ => ⟨S2000x4032, .i32⟩
  | .hbm, ⟨26, _⟩ => ⟨S8064000, .i32⟩
  | .hbm, ⟨27, _⟩ => ⟨S1x4032, .i32⟩
  | .hbm, ⟨28, _⟩ => ⟨S2000x4032, .i32⟩
  | .hbm, ⟨29, _⟩ => ⟨S2000x4032, .i32⟩
  | .hbm, ⟨30, _⟩ => ⟨S2000x4032, .i32⟩
  | .hbm, ⟨31, _⟩ => ⟨S8064000, .i32⟩
  | .hbm, ⟨32, _⟩ => ⟨S1x8064000, .i32⟩
  | .hbm, ⟨33, _⟩ => ⟨S1x8064000, .i32⟩
  | .hbm, ⟨34, _⟩ => ⟨S2x8064000, .i32⟩
  | .hbm, ⟨35, _⟩ => ⟨S1x8064000, .i32⟩
  | .hbm, ⟨36, _⟩ => ⟨S8064000, .i32⟩
  | .hbm, ⟨37, _⟩ => ⟨S_, .i32⟩
  | .hbm, ⟨38, _⟩ => ⟨S8064000, .i32⟩
  | .hbm, ⟨39, _⟩ => ⟨S8064000, .i1⟩
  | .hbm, ⟨40, _⟩ => ⟨S_, .i32⟩
  | .hbm, ⟨41, _⟩ => ⟨S8064000, .i32⟩
  | .hbm, ⟨42, _⟩ => ⟨S8064000, .i32⟩
  | .hbm, ⟨43, _⟩ => ⟨S8064000, .i32⟩
  | .hbm, ⟨44, _⟩ => ⟨S8064000x1, .i32⟩
  | .hbm, ⟨45, _⟩ => ⟨S8064000x3, .f32⟩
  | .hbm, ⟨46, _⟩ => ⟨S1x8064000, .i32⟩
  | .hbm, ⟨47, _⟩ => ⟨S8064000, .i32⟩
  | .hbm, ⟨48, _⟩ => ⟨S_, .i32⟩
  | .hbm, ⟨49, _⟩ => ⟨S8064000, .i32⟩
  | .hbm, ⟨50, _⟩ => ⟨S8064000, .i1⟩
  | .hbm, ⟨51, _⟩ => ⟨S_, .i32⟩
  | .hbm, ⟨52, _⟩ => ⟨S8064000, .i32⟩
  | .hbm, ⟨53, _⟩ => ⟨S8064000, .i32⟩
  | .hbm, ⟨54, _⟩ => ⟨S8064000, .i32⟩
  | .hbm, ⟨55, _⟩ => ⟨S8064000x1, .i32⟩
  | .hbm, ⟨56, _⟩ => ⟨S8064000x3, .f32⟩
  | .hbm, ⟨57, _⟩ => ⟨S8064000x3, .f32⟩
  | .hbm, ⟨58, _⟩ => ⟨S8064000x3, .f32⟩
  | .hbm, ⟨59, _⟩ => ⟨S_, .f32⟩
  | .hbm, ⟨60, _⟩ => ⟨S8064000, .f32⟩
  | .hbm, ⟨61, _⟩ => ⟨S8064000x1, .f32⟩
  | .hbm, ⟨62, _⟩ => ⟨S8064000x1, .f32⟩
  | _, _ => ⟨S128000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_c_0 : Ref sig .tc := ⟨.hbm, 37, rfl⟩
abbrev main_v34 : Ref sig .tc := ⟨.hbm, 38, rfl⟩
abbrev main_v35 : Ref sig .tc := ⟨.hbm, 39, rfl⟩
abbrev main_c_1 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_c_2 : Ref sig .tc := ⟨.hbm, 48, rfl⟩
abbrev main_v43 : Ref sig .tc := ⟨.hbm, 49, rfl⟩
abbrev main_v44 : Ref sig .tc := ⟨.hbm, 50, rfl⟩
abbrev main_c_3 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_call0_v0 : Ref sig .tc := ⟨.hbm, 58, rfl⟩
abbrev main_call0_cst : Ref sig .tc := ⟨.hbm, 59, rfl⟩
abbrev main_call0_v1 : Ref sig .tc := ⟨.hbm, 60, rfl⟩
abbrev main_call0_v2 : Ref sig .tc := ⟨.hbm, 61, rfl⟩
abbrev main_v51 : Ref sig .tc := ⟨.hbm, 62, rfl⟩

abbrev nD : Nat := 1
abbrev τ : Topo := Topo.v7x

variable {F : FTy → Type} [FloatOps F]

class Facts₀ : Prop where
  bcast_S64_S64x63_0 : S64.BroadcastsInDim S64x63 (![0] : Fin 1 → Fin S64x63.rank)
  shapeCasts_S64x63_S4032 : S64x63.ShapeCasts S4032
  bcast_S63_S1x63_1 : S63.BroadcastsInDim S1x63 (![1] : Fin 1 → Fin S1x63.rank)
  bcast_S64_S64x1_0 : S64.BroadcastsInDim S64x1 (![0] : Fin 1 → Fin S64x1.rank)
  bcast_S1x63_S64x63_0_1 : S1x63.BroadcastsInDim S64x63 (![0, 1] : Fin 2 → Fin S64x63.rank)
  bcast_S64x1_S64x63_0_1 : S64x1.BroadcastsInDim S64x63 (![0, 1] : Fin 2 → Fin S64x63.rank)
  natLt_1_32 : 1 < 32
  bcast_S_S2000 : S_.BroadcastsInDim S2000 (![] : Fin 0 → Fin S2000.rank)
  bcast_S2000_S2000x1_0 : S2000.BroadcastsInDim S2000x1 (![0] : Fin 1 → Fin S2000x1.rank)
  bcast_S4032_S1x4032_1 : S4032.BroadcastsInDim S1x4032 (![1] : Fin 1 → Fin S1x4032.rank)
  bcast_S2000x1_S2000x4032_0_1 : S2000x1.BroadcastsInDim S2000x4032 (![0, 1] : Fin 2 → Fin S2000x4032.rank)
  bcast_S1x4032_S2000x4032_0_1 : S1x4032.BroadcastsInDim S2000x4032 (![0, 1] : Fin 2 → Fin S2000x4032.rank)
  shapeCasts_S2000x4032_S8064000 : S2000x4032.ShapeCasts S8064000
  bcast_S8064000_S1x8064000_1 : S8064000.BroadcastsInDim S1x8064000 (![1] : Fin 1 → Fin S1x8064000.rank)
  concatenates_S1x8064000_S1x8064000_S2x8064000_d0 : Shape.Concatenates [S1x8064000, S1x8064000] S2x8064000 0
  slices_S2x8064000_S1x8064000_1_0 : S2x8064000.Slices ![1, 0] S1x8064000
  shapeCasts_S1x8064000_S8064000 : S1x8064000.ShapeCasts S8064000
  bcast_S_S8064000 : S_.BroadcastsInDim S8064000 (![] : Fin 0 → Fin S8064000.rank)
  bcast_S8064000_S8064000x1_0 : S8064000.BroadcastsInDim S8064000x1 (![0] : Fin 1 → Fin S8064000x1.rank)
  slices_S2x8064000_S1x8064000_0_0 : S2x8064000.Slices ![0, 0] S1x8064000
  reducesTo_S8064000x3_S8064000_d1 : S8064000x3.ReducesTo [1] S8064000
  h_S_ : 0 < S_.numel
  gather_S128000x3_S8064000x1_S8064000x3_1_0_n_n_0_1_13_wf : GatherDims.WF S128000x3 S8064000x1 S8064000x3 [1] [0] [] [0] [] 1 ![1, 3]

variable [Facts₀]

def gather_S128000x3_S8064000x1_S8064000x3_1_0_n_n_0_1_13 : GatherDims S128000x3 S8064000x1 S8064000x3 where
  offsetDims := [1]
  collapsedSliceDims := [0]
  operandBatchingDims := []
  startIndicesBatchingDims := []
  startIndexMap := [0]
  indexVectorDim := 1
  sliceSizes := ![1, 3]
  wf := gather_S128000x3_S8064000x1_S8064000x3_1_0_n_n_0_1_13_wf

class Facts : Prop extends Facts₀ where

variable [Facts]
-- ==== Proof.Spec.lean ====
/-
  Ordered pairs of atoms inside equal molecules, and what is computed for each pair.

  There are 2000 molecules of 64 consecutive atoms. Pair number `p` (0 ≤ p < 2000·64·63) belongs to molecule `p / 4032`;
  inside the molecule its first atom is `i = (p mod 4032) / 63` and its second atom is the `k`-th of the other 63 atoms
  in ascending order, `k = (p mod 4032) mod 63`: that is atom `k` when `k < i` and atom `k + 1` otherwise (`nb i k`: the
  first atom itself is skipped). The displacement of the pair is the position of its second atom minus that of its
  first, coordinate by coordinate; its length is the square root of the sum of the three squared coordinates. Both are
  stated here as functions of the whole array of positions over the extended reals, index by index.
-/
import Idealize.ShloMosaic.PureOps.Ideal
import Idealize.ShloMosaic.Lib.ValueIdx

noncomputable section

open scoped BigOperators

namespace Cert.Pairs

open Idealize.ShloMosaic Idealize.ShloMosaic.ValueIdx

/-- The `k`-th atom of a molecule other than atom `i`, in ascending order: `i` is skipped. -/
def nb (i k : ℕ) : ℕ := if k < i then k else k + 1

theorem nb_of_lt {i k : ℕ} (h : k < i) : nb i k = k := if_pos h
theorem nb_of_le {i k : ℕ} (h : i ≤ k) : nb i k = k + 1 := if_neg (Nat.not_lt.2 h)

theorem nb_lt {i k : ℕ} (hi : i < 64) (hk : k < 63) : nb i k < 64 := by
  unfold nb; split <;> omega

/-- The first atom of pair `p`, as a row of the position array. -/
def atomI (p : ℕ) : ℕ := p / 4032 * 64 + p % 4032 / 63
/-- The second atom of pair `p`, as a row of the position array. -/
def atomJ (p : ℕ) : ℕ := p / 4032 * 64 + nb (p % 4032 / 63) (p % 4032 % 63)

theorem atomI_lt {p : ℕ} (h : p < 8064000) : atomI p < 128000 := by
  unfold atomI; omega

theorem atomJ_lt {p : ℕ} (h : p < 8064000) : atomJ p < 128000 := by
  have h1 : nb (p % 4032 / 63) (p % 4032 % 63) < 64 := nb_lt (by omega) (by omega)
  unfold atomJ; omega

/-- The displacement of every pair: second atom's position minus first atom's, per coordinate. -/
def disp (x : (⟨2, ![128000, 3]⟩ : Shape).Idx → EReal) : (⟨2, ![8064000, 3]⟩ : Shape).Idx → EReal :=
  fun j => x (ix2 ⟨atomJ (j 0).val, atomJ_lt (j 0).isLt⟩ (j 1)) - x (ix2 ⟨atomI (j 0).val, atomI_lt (j 0).isLt⟩ (j 1))

/-- The length of every pair's displacement: the square root of the sum of its three squared coordinates. -/
def dist (x : (⟨2, ![128000, 3]⟩ : Shape).Idx → EReal) : (⟨2, ![8064000, 1]⟩ : Shape).Idx → EReal :=
  fun j => Ideal.sqrt (∑ c : Fin 3, disp x (ix2 (j 0) c) * disp x (ix2 (j 0) c))

end Cert.Pairs

end
-- ==== Proof.RowChunks.lean ====
/-
  One row's chunk of a molecule's displacement table.

  For a molecule's 64 positions `v` (rows) and its atom `a`, the chunk holds, for the other 63 atoms in ascending order,
  their position minus atom `a`'s. The other atoms are the rows above `a` followed by the rows below it: for the first atom
  that is rows 1…63, for the last atom rows 0…62, and otherwise rows 0…a−1 joined to rows a+1…63. Row `k` of the chunk is
  therefore row `nb a k` of `v` (row `k` when `k < a`, row `k + 1` otherwise) minus row `a`, coordinate by coordinate.
-/
import proofs.«128119_j54932631716418_1_alg».proof.Proof.Spec
import Idealize.ShloMosaic.Lib.ValueIdx
import Idealize.ShloMosaic.Lib.Pipeline.Value

noncomputable section

namespace Cert.Pairs

open Idealize.ShloMosaic Idealize.ShloMosaic.ValueIdx

/-- Atom `a`'s row, spread over 63 rows, read at `(k, c)`: atom `a`'s coordinate `c`. -/
theorem spread_row (a : ℕ) (v : (⟨2, ![64, 3]⟩ : Shape).Idx → EReal)
    (h1 : (⟨2, ![64, 3]⟩ : Shape).Slices ![a, 0] ⟨2, ![1, 3]⟩)
    (hb : (⟨2, ![1, 3]⟩ : Shape).Broadcasts ⟨2, ![63, 3]⟩) (hi : a < 64) (k : Fin 63) (c : Fin 3) :
    broadcastTo ⟨2, ![63, 3]⟩ (extractStridedSlice ⟨2, ![1, 3]⟩ ![a, 0] v h1) hb (ix2 k c) = v (ix2 ⟨a, hi⟩ c) := by
  refine (broadcastTo_apply _ hb (ix2 k c) (ix2 ⟨0, Nat.one_pos⟩ c) ?_).trans ?_
  · intro b
    match b with
    | ⟨0, _⟩ => rfl
    | ⟨1, _⟩ => rfl
  · refine extractStridedSlice_apply _ v h1 _ (ix2 ⟨a, hi⟩ c) ?_
    intro b
    match b with
    | ⟨0, _⟩ => rfl
    | ⟨1, _⟩ => show c.val = 0 + c.val; omega

/-- A middle atom `a` (`a` rows above it, `b` rows below): the chunk at `(k, c)`. -/
theorem chunk_mid (a b : ℕ) (v : (⟨2, ![64, 3]⟩ : Shape).Idx → EReal)
    (h1 : (⟨2, ![64, 3]⟩ : Shape).Slices ![a, 0] ⟨2, ![1, 3]⟩)
    (h2 : (⟨2, ![64, 3]⟩ : Shape).Slices ![0, 0] ⟨2, ![a, 3]⟩)
    (h3 : (⟨2, ![64, 3]⟩ : Shape).Slices ![a + 1, 0] ⟨2, ![b, 3]⟩)
    (hc : Shape.Concatenates [⟨2, ![a, 3]⟩, ⟨2, ![b, 3]⟩] ⟨2, ![63, 3]⟩ 0)
    (hb : (⟨2, ![1, 3]⟩ : Shape).Broadcasts ⟨2, ![63, 3]⟩) (hi : a < 64) (k : Fin 63) (c : Fin 3) :
    subf (F := Ideal) (φ := .f32)
        (concatenate ⟨2, ![63, 3]⟩ 0 [⟨⟨2, ![a, 3]⟩, extractStridedSlice ⟨2, ![a, 3]⟩ ![0, 0] v h2⟩,
          ⟨⟨2, ![b, 3]⟩, extractStridedSlice ⟨2, ![b, 3]⟩ ![a + 1, 0] v h3⟩] hc)
        (broadcastTo ⟨2, ![63, 3]⟩ (extractStridedSlice ⟨2, ![1, 3]⟩ ![a, 0] v h1) hb) (ix2 k c)
      = v (ix2 ⟨nb a k.val, nb_lt hi k.isLt⟩ c) - v (ix2 ⟨a, hi⟩ c) := by
  rw [subf_apply, spread_row a v h1 hb hi k c]
  congr 1
  have hab : a + b = 63 := by
    have e := hc.2.2
    simpa using e
  by_cases hk : k.val < a
  · have e : (⟨nb a k.val, nb_lt hi k.isLt⟩ : Fin 64) = ⟨k.val, by omega⟩ := Fin.ext (nb_of_lt hk)
    rw [e]
    refine (concatenate_pair_apply_left (t := ⟨2, ![63, 3]⟩) (s₁ := ⟨2, ![a, 3]⟩) (s₂ := ⟨2, ![b, 3]⟩) (0 : Fin 2) _ _ hc (ix2 k c) rfl
      (ix2 (n0 := a) ⟨k.val, hk⟩ c) ?_).trans ?_
    · intro b'
      match b' with
      | ⟨0, _⟩ => rfl
      | ⟨1, _⟩ => rfl
    · refine extractStridedSlice_apply _ v h2 _ (ix2 ⟨k.val, by omega⟩ c) ?_
      intro b'
      match b' with
      | ⟨0, _⟩ => show k.val = 0 + k.val; omega
      | ⟨1, _⟩ => show c.val = 0 + c.val; omega
  · have hk' : a ≤ k.val := Nat.not_lt.1 hk
    have e : (⟨nb a k.val, nb_lt hi k.isLt⟩ : Fin 64) = ⟨k.val + 1, by omega⟩ := Fin.ext (nb_of_le hk')
    rw [e]
    have hkb : k.val - a < b := by have := k.isLt; omega
    refine (concatenate_pair_apply_right (t := ⟨2, ![63, 3]⟩) (s₁ := ⟨2, ![a, 3]⟩) (s₂ := ⟨2, ![b, 3]⟩) (0 : Fin 2) _ _ hc (ix2 k c) rfl rfl
      (ix2 (n0 := b) ⟨k.val - a, hkb⟩ c) ?_ ?_).trans ?_
    · intro b' hb'
      match b' with
      | ⟨0, _⟩ => exact absurd rfl hb'
      | ⟨1, _⟩ => rfl
    · show k.val - a + a = k.val
      omega
    · refine extractStridedSlice_apply _ v h3 _ (ix2 ⟨k.val + 1, by omega⟩ c) ?_
      intro b'
      match b' with
      | ⟨0, _⟩ => show k.val + 1 = a + 1 + (k.val - a); omega
      | ⟨1, _⟩ => show c.val = 0 + c.val; omega

/-- The first atom: the other atoms are rows 1…63. -/
theorem chunk_first (v : (⟨2, ![64, 3]⟩ : Shape).Idx → EReal)
    (h1 : (⟨2, ![64, 3]⟩ : Shape).Slices ![0, 0] ⟨2, ![1, 3]⟩)
    (h3 : (⟨2, ![64, 3]⟩ : Shape).Slices ![1, 0] ⟨2, ![63, 3]⟩)
    (hb : (⟨2, ![1, 3]⟩ : Shape).Broadcasts ⟨2, ![63, 3]⟩) (hi : 0 < 64) (k : Fin 63) (c : Fin 3) :
    subf (F := Ideal) (φ := .f32) (extractStridedSlice ⟨2, ![63, 3]⟩ ![1, 0] v h3)
        (broadcastTo ⟨2, ![63, 3]⟩ (extractStridedSlice ⟨2, ![1, 3]⟩ ![0, 0] v h1) hb) (ix2 k c)
      = v (ix2 ⟨nb 0 k.val, nb_lt hi k.isLt⟩ c) - v (ix2 ⟨0, hi⟩ c) := by
  rw [subf_apply, spread_row 0 v h1 hb hi k c]
  congr 1
  have e : (⟨nb 0 k.val, nb_lt hi k.isLt⟩ : Fin 64) = ⟨k.val + 1, by have := k.isLt; omega⟩ :=
    Fin.ext (nb_of_le (Nat.zero_le _))
  rw [e]
  refine extractStridedSlice_apply _ v h3 _ (ix2 ⟨k.val + 1, by have := k.isLt; omega⟩ c) ?_
  intro b'
  match b' with
  | ⟨0, _⟩ => show k.val + 1 = 1 + k.val; omega
  | ⟨1, _⟩ => show c.val = 0 + c.val; omega

/-- The last atom: the other atoms are rows 0…62. -/
theorem chunk_last (v : (⟨2, ![64, 3]⟩ : Shape).Idx → EReal)
    (h1 : (⟨2, ![64, 3]⟩ : Shape).Slices ![63, 0] ⟨2, ![1, 3]⟩)
    (h2 : (⟨2, ![64, 3]⟩ : Shape).Slices ![0, 0] ⟨2, ![63, 3]⟩)
    (hb : (⟨2, ![1, 3]⟩ : Shape).Broadcasts ⟨2, ![63, 3]⟩) (hi : 63 < 64) (k : Fin 63) (c : Fin 3) :
    subf (F := Ideal) (φ := .f32) (extractStridedSlice ⟨2, ![63, 3]⟩ ![0, 0] v h2)
        (broadcastTo ⟨2, ![63, 3]⟩ (extractStridedSlice ⟨2, ![1, 3]⟩ ![63, 0] v h1) hb) (ix2 k c)
      = v (ix2 ⟨nb 63 k.val, nb_lt hi k.isLt⟩ c) - v (ix2 ⟨63, hi⟩ c) := by
  rw [subf_apply, spread_row 63 v h1 hb hi k c]
  congr 1
  have e : (⟨nb 63 k.val, nb_lt hi k.isLt⟩ : Fin 64) = ⟨k.val, by have := k.isLt; omega⟩ :=
    Fin.ext (nb_of_lt k.isLt)
  rw [e]
  refine extractStridedSlice_apply _ v h2 _ (ix2 ⟨k.val, by have := k.isLt; omega⟩ c) ?_
  intro b'
  match b' with
  | ⟨0, _⟩ => show k.val = 0 + k.val; omega
  | ⟨1, _⟩ => show c.val = 0 + c.val; omega

end Cert.Pairs

end
-- ==== Proof.LibUniformConcat.lean ====
/-
  A concatenation of pieces of one shape, read at an index, and a way to state a fact about every piece of a long
  literal list at once.

  Laying `N` pieces of the same extent `K` end to end along an axis puts position `r` of the result in piece `r / K`, at
  position `r % K` of that piece: the pieces before it take up `K · (r / K)` positions. For rows of a two-axis array
  (pieces `[K, w]`, result `[T, w]`, joined along axis 0) this is `concat_blocks_pred` below.

  `Numbered P n xs` says `P n` of the first piece of `xs`, `P (n+1)` of the second, and so on: a proof supplies it for a
  literal list as one conjunction, piece by piece, and `Numbered.get` reads it back at a position given as a number.
-/
import Idealize.ShloMosaic.PureOps.Ideal
import Idealize.ShloMosaic.Lib.ValueIdx
import Idealize.ShloMosaic.Lib.Pipeline.Value

noncomputable section

namespace Idealize.ShloMosaic.UniformConcat

open Idealize.ShloMosaic Idealize.ShloMosaic.ValueIdx

variable {α : Type}

/-- `P n` of the first piece, `P (n + 1)` of the second, … -/
def Numbered {β : Type _} (P : ℕ → β → Prop) : ℕ → List β → Prop
  | _, [] => True
  | n, y :: ys => P n y ∧ Numbered P (n + 1) ys

theorem Numbered.get {β : Type _} (P : ℕ → β → Prop) : ∀ (n : ℕ) (xs : List β), Numbered P n xs →
    ∀ (k : ℕ) (hk : k < xs.length), P (n + k) xs[k]
  | _, [], _, k, hk => absurd hk (Nat.not_lt_zero _)
  | n, y :: ys, h, 0, _ => h.1
  | n, y :: ys, h, k + 1, hk => by
    have := Numbered.get P (n + 1) ys h.2 k (by simpa using hk)
    simpa [Nat.add_assoc, Nat.add_comm 1 k] using this

/-- The pieces before piece `n`, all of extent `K` along the axis, take up `K · n` positions. -/
theorem take_extent_sum {t s₁ : Shape} (a : Fin t.rank) (hr : s₁.rank = t.rank) (K : ℕ)
    (hK : s₁.size (a.cast hr.symm) = K) :
    ∀ (xs : List ((s : Shape) × (s.Idx → α))) (_ : ∀ y ∈ xs, y.1 = s₁) (n : ℕ) (_ : n ≤ xs.length),
      (((xs.take n).map (·.1)).map fun s => if h : s.rank = t.rank then s.size (a.cast h.symm) else 0).sum = K * n
  | _, _, 0, _ => by simp
  | [], _, n + 1, hn => absurd hn (by simp)
  | y :: ys, hall, n + 1, hn => by
    have hy : y.1 = s₁ := hall y (by simp)
    have ih := take_extent_sum a hr K hK ys (fun z hz => hall z (by simp [hz])) n (by simpa using hn)
    simp only [List.take_succ_cons, List.map_cons, List.sum_cons]
    rw [ih, hy, dif_pos hr, hK]
    ring

/-- A concatenation of pieces that all have the shape `s₁`, of extent `K` along the axis, read at an index: piece `n`
    at the index with the same coordinates off the axis and, on it, the position less `K · n`. -/
theorem concatenate_uniform_apply {t s₁ : Shape} (a : Fin t.rank) (xs : List ((s : Shape) × (s.Idx → α)))
    (h : Shape.Concatenates (xs.map (·.1)) t a) (hr : s₁.rank = t.rank) (K : ℕ) (hK : s₁.size (a.cast hr.symm) = K)
    (hall : ∀ y ∈ xs, y.1 = s₁) (j : t.Idx) (n : ℕ) (hn : n < xs.length) (x₁ : s₁.Idx → α) (hx : xs[n] = ⟨s₁, x₁⟩)
    (i : s₁.Idx) (hi : ∀ b : Fin s₁.rank, b.cast hr ≠ a → (i b).val = (j (b.cast hr)).val)
    (ha : K * n + (i (a.cast hr.symm)).val = (j a).val) :
    concatenate t a xs h j = x₁ i :=
  concatenate_apply_piece a xs h j n hn s₁ x₁ hx hr (K * n)
    (take_extent_sum a hr K hK xs hall n (Nat.le_of_lt hn)) i hi ha

/-- Rows: pieces `[K, w]` joined along axis 0 into `[T, w]`, every piece `n` satisfying `Q n`. The result's row `r`,
    column `c`, is row `r % K`, column `c`, of a piece that satisfies `Q (r / K)`. -/
theorem concat_blocks_pred {K w T : ℕ} (xs : List ((s : Shape) × (s.Idx → α)))
    (h : Shape.Concatenates (xs.map (·.1)) ⟨2, ![T, w]⟩ 0)
    (Q : ℕ → ((⟨2, ![K, w]⟩ : Shape).Idx → α) → Prop)
    (hxs : Numbered (fun n (y : (s : Shape) × (s.Idx → α)) => ∃ x : (⟨2, ![K, w]⟩ : Shape).Idx → α,
      y = ⟨⟨2, ![K, w]⟩, x⟩ ∧ Q n x) 0 xs)
    (hK : 0 < K) (r : Fin T) (c : Fin w) (hlt : r.val / K < xs.length) :
    ∃ x : (⟨2, ![K, w]⟩ : Shape).Idx → α, Q (r.val / K) x ∧
      concatenate ⟨2, ![T, w]⟩ 0 xs h (ix2 r c) = x (ix2 ⟨r.val % K, Nat.mod_lt _ hK⟩ c) := by
  obtain ⟨x, hx, hQ⟩ := Numbered.get _ 0 xs hxs (r.val / K) hlt
  rw [Nat.zero_add] at hQ
  refine ⟨x, hQ, ?_⟩
  have hall : ∀ y ∈ xs, y.1 = (⟨2, ![K, w]⟩ : Shape) := by
    intro y hy
    obtain ⟨k, hk, rfl⟩ := List.getElem_of_mem hy
    obtain ⟨x', hx', -⟩ := Numbered.get _ 0 xs hxs k hk
    rw [hx']
  refine concatenate_uniform_apply (t := ⟨2, ![T, w]⟩) (s₁ := ⟨2, ![K, w]⟩) (0 : Fin 2) xs h rfl K rfl hall (ix2 r c) (r.val / K) hlt x hx
    (ix2 ⟨r.val % K, Nat.mod_lt _ hK⟩ c) ?_ ?_
  · intro b hb
    match b with
    | ⟨0, _⟩ => exact absurd rfl hb
    | ⟨1, _⟩ => rfl
  · show K * (r.val / K) + r.val % K = r.val
    exact Nat.div_add_mod r.val K

end Idealize.ShloMosaic.UniformConcat

end
-- ==== Proof.KernelRows.lean ====
/-
  What one grid step leaves in its two output blocks, element by element.

  A step stages 256 rows of positions (four molecules of 64 atoms) and leaves 16128 = 4·64·63 displacement rows: local
  pair `q` belongs to the step's molecule `q / 4032`, its first atom is local row `(q mod 4032) / 63` of that molecule and its
  second atom the `(q mod 4032) mod 63`-th of the other atoms. The block is built by joining, per molecule, the 64 chunks
  of its atoms (63 rows each), and then the four molecules' tables (4032 rows each); so row `q` is row `q mod 4032` of
  molecule `q / 4032`'s table, which is row `(q mod 4032) mod 63` of the chunk of atom `(q mod 4032) / 63`. The second block
  holds each displacement's length: the square root of the sum over the three coordinates of the squared displacement.
-/
import proofs.«128119_j54932631716418_1_alg».proof.Proof.Gen.KernelIdeal.Frame
import proofs.«128119_j54932631716418_1_alg».proof.Proof.Spec
import proofs.«128119_j54932631716418_1_alg».proof.Proof.RowChunks
import proofs.«128119_j54932631716418_1_alg».proof.Proof.LibUniformConcat
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Rows

open Cert.KernelIdeal Cert.KernelIdeal.Gen Idealize.ShloMosaic Idealize.ShloMosaic.ValueIdx Cert.Pairs
open Idealize.ShloMosaic.UniformConcat

theorem local_second_lt (q : Fin 16128) : q.val / 4032 * 64 + nb (q.val % 4032 / 63) (q.val % 4032 % 63) < 256 := by
  have h1 : nb (q.val % 4032 / 63) (q.val % 4032 % 63) < 64 := nb_lt (by omega) (by omega)
  have := q.isLt
  omega

theorem local_first_lt (q : Fin 16128) : q.val / 4032 * 64 + q.val % 4032 / 63 < 256 := by
  have := q.isLt
  omega

/-- `x` is the chunk of atom `i` of a molecule with positions `v`. -/
def ChunkOf (v : (⟨2, ![64, 3]⟩ : Shape).Idx → EReal) (i : ℕ) (x : (⟨2, ![63, 3]⟩ : Shape).Idx → EReal) : Prop :=
  ∀ (hi : i < 64) (k : Fin 63) (c : Fin 3), x (ix2 k c) = v (ix2 ⟨nb i k.val, nb_lt hi k.isLt⟩ c) - v (ix2 ⟨i, hi⟩ c)

/-- A molecule's table from its 64 chunks: row `a` is the displacement from atom `a / 63` to its `a mod 63`-th other atom. -/
theorem mol_apply (v : (⟨2, ![64, 3]⟩ : Shape).Idx → EReal) (xs : List ((s : Shape) × (s.Idx → EReal)))
    (h : Shape.Concatenates (xs.map (·.1)) ⟨2, ![4032, 3]⟩ 0) (hlen : xs.length = 64)
    (hxs : Numbered (fun n (y : (s : Shape) × (s.Idx → EReal)) => ∃ x : (⟨2, ![63, 3]⟩ : Shape).Idx → EReal,
      y = ⟨⟨2, ![63, 3]⟩, x⟩ ∧ ChunkOf v n x) 0 xs) (a : Fin 4032) (c : Fin 3) :
    concatenate ⟨2, ![4032, 3]⟩ 0 xs h (ix2 a c)
      = v (ix2 ⟨nb (a.val / 63) (a.val % 63), nb_lt (by have := a.isLt; omega) (Nat.mod_lt _ (by decide))⟩ c)
        - v (ix2 ⟨a.val / 63, by have := a.isLt; omega⟩ c) := by
  obtain ⟨x, hQ, e⟩ := concat_blocks_pred (K := 63) (w := 3) (T := 4032) xs h (ChunkOf v) hxs (by decide) a c
    (by rw [hlen]; have := a.isLt; omega)
  rw [e]
  exact hQ (by have := a.isLt; omega) ⟨a.val % 63, Nat.mod_lt _ (by decide)⟩ c

/-- `X` is the table of the step's molecule `μ`, whose 64 positions are rows `64 μ …` of the staged block `x0`. -/
def MolOf (x0 : (⟨2, ![256, 3]⟩ : Shape).Idx → EReal) (μ : ℕ) (X : (⟨2, ![4032, 3]⟩ : Shape).Idx → EReal) : Prop :=
  ∀ (hμ : μ < 4) (a : Fin 4032) (c : Fin 3),
    X (ix2 a c) = x0 (ix2 ⟨μ * 64 + nb (a.val / 63) (a.val % 63), by
          have := nb_lt (i := a.val / 63) (k := a.val % 63) (by have := a.isLt; omega) (Nat.mod_lt _ (by decide)); omega⟩ c)
        - x0 (ix2 ⟨μ * 64 + a.val / 63, by have := a.isLt; omega⟩ c)

/-- A molecule's 64 rows read out of the staged block: local row `n` of the molecule starting at row `off`. -/
theorem ld_mol (x0 : Vec Ideal S256x3 .f32) (off : ℕ)
    (inb : ∀ a, (![off, 0] : Fin 2 → ℕ) a + S64x3.size a ≤ S256x3.size a) (n : Fin 64) (c : Fin 3) :
    View.ld x0 (Rect.unit (s := S256x3) ![off, 0] S64x3.size inb) (ix2 n c)
      = x0 (ix2 ⟨off + n.val, by have h : off + 64 ≤ 256 := inb 0; have := n.isLt; omega⟩ c) := by
  show x0 _ = x0 _
  congr 1
  funext b
  apply Fin.ext
  match b with
  | ⟨0, _⟩ => show off + 1 * n.val = off + n.val; omega
  | ⟨1, _⟩ => show 0 + 1 * c.val = c.val; omega

theorem hz : (![0, 0] : Fin 2 → Nat) = fun _ => 0 := funext fun a => by fin_cases a <;> rfl

theorem Numbered.cons {β : Type _} (P : ℕ → β → Prop) (n : ℕ) (y : β) (ys : List β) (h1 : P n y)
    (h2 : Numbered P (n + 1) ys) : Numbered P n (y :: ys) := ⟨h1, h2⟩

theorem Numbered.nil {β : Type _} (P : ℕ → β → Prop) (n : ℕ) : Numbered P n ([] : List β) := trivial

/-- One chunk, whichever of the three forms it has. -/
macro "chunk_row" : tactic => `(tactic|
  (refine ⟨_, rfl, ?_⟩
   intro hi k c
   first
     | exact chunk_mid _ _ _ _ _ _ _ _ hi k c
     | exact chunk_first _ _ _ _ hi k c
     | exact chunk_last _ _ _ _ hi k c
     | exact chunk_last _ (by decide) (by decide) (by decide) hi k c
     | exact chunk_first _ (by decide) (by decide) (by decide) hi k c
     | exact chunk_mid _ _ _ (by decide) (by decide) (by decide) (by decide) (by decide) hi k c))

/-- All the chunks of a molecule, in order. -/
macro "chunk_rows" : tactic => `(tactic|
  repeat' (first | exact Numbered.nil _ _ | refine Numbered.cons _ _ _ _ (by chunk_row) ?_))

/-- The displacement block: row `q`, coordinate `c`, is the second atom's coordinate minus the first atom's. -/
theorem out_rows (x0 : Vec Ideal S256x3 .f32) (q : Fin 16128) (c : Fin 3) :
    out0_1 (F := Ideal) x0 (ix2 q c)
      = x0 (ix2 ⟨q.val / 4032 * 64 + nb (q.val % 4032 / 63) (q.val % 4032 % 63), local_second_lt q⟩ c)
        - x0 (ix2 ⟨q.val / 4032 * 64 + q.val % 4032 / 63, local_first_lt q⟩ c) := by
  unfold out0_1
  rw [View.canon_unit_zero hz]
  have key : ∀ (xs : List ((s : Shape) × (s.Idx → EReal))) (h : Shape.Concatenates (xs.map (·.1)) ⟨2, ![16128, 3]⟩ 0)
      (_ : xs.length = 4)
      (_ : Numbered (fun n (y : (s : Shape) × (s.Idx → EReal)) => ∃ X : (⟨2, ![4032, 3]⟩ : Shape).Idx → EReal,
        y = ⟨⟨2, ![4032, 3]⟩, X⟩ ∧ MolOf x0 n X) 0 xs),
      concatenate ⟨2, ![16128, 3]⟩ 0 xs h (ix2 q c)
        = x0 (ix2 ⟨q.val / 4032 * 64 + nb (q.val % 4032 / 63) (q.val % 4032 % 63), local_second_lt q⟩ c)
          - x0 (ix2 ⟨q.val / 4032 * 64 + q.val % 4032 / 63, local_first_lt q⟩ c) := by
    intro xs h hlen hxs
    obtain ⟨X, hX, e⟩ := concat_blocks_pred (K := 4032) (w := 3) (T := 16128) xs h (MolOf x0) hxs (by decide) q c
      (by rw [hlen]; have := q.isLt; omega)
    rw [e]
    exact hX (by have := q.isLt; omega) ⟨q.val % 4032, Nat.mod_lt _ (by decide)⟩ c
  refine key _ _ rfl ?_
  refine Numbered.cons _ _ _ _ ⟨_, rfl, ?_⟩ (Numbered.cons _ _ _ _ ⟨_, rfl, ?_⟩ (Numbered.cons _ _ _ _ ⟨_, rfl, ?_⟩
    (Numbered.cons _ _ _ _ ⟨_, rfl, ?_⟩ (Numbered.nil _ _))))
  · intro hμ a c'
    refine (mol_apply (View.ld x0 r0_0) _ (by simp only [List.map_cons, List.map_nil]; decide) rfl (by chunk_rows) a c').trans ?_
    rw [ld_mol, ld_mol] <;> rfl
  · intro hμ a c'
    refine (mol_apply (View.ld x0 r0_1) _ (by simp only [List.map_cons, List.map_nil]; decide) rfl (by chunk_rows) a c').trans ?_
    rw [ld_mol, ld_mol] <;> rfl
  · intro hμ a c'
    refine (mol_apply (View.ld x0 r0_2) _ (by simp only [List.map_cons, List.map_nil]; decide) rfl (by chunk_rows) a c').trans ?_
    rw [ld_mol, ld_mol] <;> rfl
  · intro hμ a c'
    refine (mol_apply (View.ld x0 r0_3) _ (by simp only [List.map_cons, List.map_nil]; decide) rfl (by chunk_rows) a c').trans ?_
    rw [ld_mol, ld_mol] <;> rfl

/-- The length of each row of any 16128 × 3 table `W`, as the second store computes it: square every entry, add the three
    entries of a row, take the square root. -/
theorem norm_apply (W : FVec Ideal S16128x3 .f32) (q : Fin 16128) (u : Fin 1) :
    k0_pay1 (F := Ideal) W (ix2 q u) = Ideal.sqrt (∑ c : Fin 3, W (ix2 q c) * W (ix2 q c)) := by
  unfold k0_pay1
  show Ideal.sqrt (shapeCast S16128x1 (multiReduction .add [1] S16128 (mulf W W) 0x00000000#32 reduces_S16128x3_S16128 (.inl rfl) rfl)
    shapeCasts_S16128_S16128x1 (ix2 q u)) = _
  congr 1
  refine (shapeCast_apply _ shapeCasts_S16128_S16128x1 (ix2 q u) (ix1 q) ?_).trans ?_
  · rw [Shape.rowMajor_val_one, Shape.rowMajor_val_two]
    show q.val = q.val * 1 + u.val
    have := u.isLt
    omega
  · refine (Ideal.multiReduction_add_single (mulf W W) 0x00000000#32 reduces_S16128x3_S16128 (.inl rfl) rfl (ix1 q)).trans ?_
    refine Finset.sum_congr rfl fun k _ => ?_
    have e : reduces_S16128x3_S16128.lift (ix1 q) k = ix2 q k := by
      funext a
      apply Fin.ext
      match a with
      | ⟨0, _⟩ => rfl
      | ⟨1, _⟩ => rfl
    rw [e]
    rfl

/-- The length block: row `q` is the square root of the sum of the three squared coordinates of displacement `q`. -/
theorem out_norm (x0 : Vec Ideal S256x3 .f32) (q : Fin 16128) (u : Fin 1) :
    out0_2 (F := Ideal) x0 (ix2 q u)
      = Ideal.sqrt (∑ c : Fin 3, out0_1 (F := Ideal) x0 (ix2 q c) * out0_1 (F := Ideal) x0 (ix2 q c)) := by
  unfold out0_1 out0_2
  rw [View.canon_unit_zero hz, View.canon_unit_zero hz]
  exact norm_apply _ q u

end Cert.KernelIdeal.Rows

end
-- ==== Proof.KernelArrays.lean ====
/-
  From one grid step's blocks to the whole output arrays.

  The run has 500 grid steps. Step `t` stages rows `256 t … 256 t + 255` of the positions (four molecules of 64 atoms)
  and writes back rows `16128 t … 16128 t + 16127` of the displacement array and of the length array (4 · 64 · 63 pairs).
  Global pair `p = 16128 t + q` lies in molecule `p / 4032 = 4 t + q / 4032` and sits inside its molecule where the local
  pair `q` sits inside its own (`p mod 4032 = q mod 4032`), so both of its atoms are the local atoms' rows shifted by
  `256 t`: what step `t` writes back is block `t` of the whole-array functions `Cert.Pairs.disp` and `Cert.Pairs.dist` of the
  positions. The 500 blocks tile all 8064000 rows, so after the run the two arrays ARE those functions of the positions
  argument. The table of pair indices that the host operations compute beside the region is stated as their composed term.
-/
import proofs.«128119_j54932631716418_1_alg».proof.Proof.Gen.KernelIdeal.Value
import proofs.«128119_j54932631716418_1_alg».proof.Proof.KernelRows
import proofs.«128119_j54932631716418_1_alg».proof.Proof.Spec
import Idealize.ShloMosaic.Lib.Pipeline.Value
import Idealize.ShloMosaic.Lib.ValueIdx
import Idealize.ShloMosaic.Lib.StableHlo.Run

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

open Cert.Pairs

/-! ## Where the three windows' blocks sit: block number = grid step, on the row axis only -/

/-- Decided once over the 500 grid steps: at step `t` every window is at block `t` on the row axis and at block 0 on the
    coordinate axis. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## One element of a step's two output blocks, over variables -/

/-- Global pair `p = 16128 t + q` lies in molecule `4 t + q / 4032` and has the same place inside its molecule as the
    local pair `q`; hence its second atom's row is `256 t` plus the local second atom's row. -/
theorem atomJ_step (t q p : ℕ) (hq : q < 16128) (hp : p = 16128 * t + q) :
    atomJ p = 256 * t + (q / 4032 * 64 + nb (q % 4032 / 63) (q % 4032 % 63)) := by
  have h1 : p / 4032 = 4 * t + q / 4032 := by omega
  have h2 : p % 4032 = q % 4032 := by omega
  unfold atomJ
  rw [h1, h2]
  generalize nb (q % 4032 / 63) (q % 4032 % 63) = z
  omega

/-- Likewise its first atom's row. -/
theorem atomI_step (t q p : ℕ) (hq : q < 16128) (hp : p = 16128 * t + q) :
    atomI p = 256 * t + (q / 4032 * 64 + q % 4032 / 63) := by
  have h1 : p / 4032 = 4 * t + q / 4032 := by omega
  have h2 : p % 4032 = q % 4032 := by omega
  unfold atomI
  rw [h1, h2]
  omega

/-- If the staged block `x0` is rows `256 t … 256 t + 255` of the positions `x`, then the displacement block's element
    `(q, c)` is the displacement of global pair `16128 t + q`, coordinate `c`. -/
theorem disp_at (x : S128000x3.Idx → EReal) (x0 : Vec Ideal S256x3 .f32) (t : ℕ)
    (hx0 : ∀ (a : Fin 256) (d : Fin 3) (k : S128000x3.Idx), (k 0).val = 256 * t + a.val → (k 1).val = d.val → x0 (ix2 a d) = x k)
    (q : Fin 16128) (c : Fin 3) (i : S8064000x3.Idx) (hi0 : (i 0).val = 16128 * t + q.val) (hi1 : (i 1).val = c.val) :
    out0_1 (F := Ideal) x0 (ix2 q c) = disp x i := by
  rw [Rows.out_rows]
  unfold disp
  rw [hx0 _ _ (ix2 ⟨atomJ (i 0).val, atomJ_lt (i 0).isLt⟩ (i 1)) (atomJ_step t q.val _ q.isLt hi0) hi1,
    hx0 _ _ (ix2 ⟨atomI (i 0).val, atomI_lt (i 0).isLt⟩ (i 1)) (atomI_step t q.val _ q.isLt hi0) hi1]

/-- And the length block's element `q` is the length of global pair `16128 t + q`. -/
theorem dist_at (x : S128000x3.Idx → EReal) (x0 : Vec Ideal S256x3 .f32) (t : ℕ)
    (hx0 : ∀ (a : Fin 256) (d : Fin 3) (k : S128000x3.Idx), (k 0).val = 256 * t + a.val → (k 1).val = d.val → x0 (ix2 a d) = x k)
    (q : Fin 16128) (u : Fin 1) (i : S8064000x1.Idx) (hi0 : (i 0).val = 16128 * t + q.val) :
    out0_2 (F := Ideal) x0 (ix2 q u) = Cert.Pairs.dist x i := by
  rw [Rows.out_norm]
  unfold Cert.Pairs.dist
  refine congrArg Ideal.sqrt (Finset.sum_congr rfl fun c _ => ?_)
  rw [disp_at x x0 t hx0 q c (ix2 (i 0) c) hi0 rfl]

/-- The same two facts at a block index `y` given whole. -/
theorem disp_block (x : S128000x3.Idx → EReal) (x0 : Vec Ideal S256x3 .f32) (t : ℕ)
    (hx0 : ∀ (a : Fin 256) (d : Fin 3) (k : S128000x3.Idx), (k 0).val = 256 * t + a.val → (k 1).val = d.val → x0 (ix2 a d) = x k)
    (y : S16128x3.Idx) (i : S8064000x3.Idx) (hi0 : (i 0).val = 16128 * t + (y 0).val) (hi1 : (i 1).val = (y 1).val) :
    out0_1 (F := Ideal) x0 y = disp x i := by
  obtain ⟨q, c, rfl⟩ : ∃ (q : Fin 16128) (c : Fin 3), y = ix2 q c := ⟨y 0, y 1, eq_ix2 y⟩
  exact disp_at x x0 t hx0 q c i hi0 hi1

theorem dist_block (x : S128000x3.Idx → EReal) (x0 : Vec Ideal S256x3 .f32) (t : ℕ)
    (hx0 : ∀ (a : Fin 256) (d : Fin 3) (k : S128000x3.Idx), (k 0).val = 256 * t + a.val → (k 1).val = d.val → x0 (ix2 a d) = x k)
    (y : S16128x1.Idx) (i : S8064000x1.Idx) (hi0 : (i 0).val = 16128 * t + (y 0).val) :
    out0_2 (F := Ideal) x0 y = Cert.Pairs.dist x i := by
  obtain ⟨q, u, rfl⟩ : ∃ (q : Fin 16128) (u : Fin 1), y = ix2 q u := ⟨y 0, y 1, eq_ix2 y⟩
  exact dist_at x x0 t hx0 q u i hi0

/-! ## The staged block is 256 consecutive rows of the positions -/

/-- Step `t`'s input block at local row `a`, coordinate `d`, is the positions array (as the region finds it) at row
    `256 t + a`: a block's element sits at block number × block size + its own coordinate on each axis. -/
theorem iblk_row (c : Dev nD) (t : Fin cfg0.N) (a : Fin 256) (d : Fin 3) (k : S128000x3.Idx)
    (hk0 : (k 0).val = 256 * t.val + a.val) (hk1 : (k 1).val = d.val) :
    (iblk m c 0 t : Vec Ideal S256x3 .f32) (ix2 a d) = (V m c main_arg0 : S128000x3.Idx → EReal) k := by
  obtain ⟨e0, e1, -⟩ := index_facts t
  unfold iblk
  rw [View.read_apply]
  show V m c main_arg0 (((cfg0.win 0).blk t).view.emb (ix2 a d)) = V m c main_arg0 k
  refine congrArg (V m c main_arg0) ?_
  funext b
  apply Fin.ext
  match b with
  | ⟨0, _⟩ => show win0_0.index t (0 : Fin 2) * 256 + 1 * a.val = (k 0).val; rw [e0, hk0]; omega
  | ⟨1, _⟩ => show win0_0.index t (1 : Fin 2) * 3 + 1 * d.val = (k 1).val; rw [e1, hk1]; omega

/-! ## What each step writes back is its block of the whole-array functions -/

/-- Step `t` writes back, to the displacement array, block `t` of `disp` of the positions. -/
theorem flushed_disp (c : Dev nD) (t : Fin cfg0.N) :
    (dats m 0 c).flushed 1 t = ((cfg0.win 1).blk t).view.read (Elt Ideal) (disp (V m c main_arg0)) := by
  obtain ⟨-, -, e0, e1, -⟩ := index_facts t
  rw [Value.flushed1]
  funext y
  show out0_1 (F := Ideal) (iblk m c 0 t) y = disp (V m c main_arg0) (((cfg0.win 1).blk t).view.emb y)
  refine disp_block (V m c main_arg0) (iblk m c 0 t) t.val (fun a d k h0 h1 => iblk_row m c t a d k h0 h1) y _ ?_ ?_
  · show win0_1.index t (0 : Fin 2) * 16128 + 1 * (y 0).val = 16128 * t.val + (y 0).val
    rw [e0]; omega
  · show win0_1.index t (1 : Fin 2) * 3 + 1 * (y 1).val = (y 1).val
    rw [e1]; omega

/-- Step `t` writes back, to the length array, block `t` of `dist` of the positions. -/
theorem flushed_dist (c : Dev nD) (t : Fin cfg0.N) :
    (dats m 0 c).flushed 2 t = ((cfg0.win 2).blk t).view.read (Elt Ideal) (Cert.Pairs.dist (V m c main_arg0)) := by
  obtain ⟨-, -, -, -, e0, e1⟩ := index_facts t
  rw [Value.flushed2]
  funext y
  show out0_2 (F := Ideal) (iblk m c 0 t) y = Cert.Pairs.dist (V m c main_arg0) (((cfg0.win 2).blk t).view.emb y)
  refine dist_block (V m c main_arg0) (iblk m c 0 t) t.val (fun a d k h0 h1 => iblk_row m c t a d k h0 h1) y _ ?_
  show win0_2.index t (0 : Fin 2) * 16128 + 1 * (y 0).val = 16128 * t.val + (y 0).val
  rw [e0]; omega

/-! ## Every row of the two output arrays lies in the block of step ⌊row / 16128⌋ -/

/-- An index of the displacement array is in step `t`'s block iff each coordinate is in the block's range on its axis. -/
theorem mem_blk_disp (t : Fin cfg0.N) (i : S8064000x3.Idx) :
    i ∈ ((cfg0.win 1).blk t).view.set ↔ ∀ a : Fin 2, win0_1.index t a * S16128x3.size a ≤ (i a).val ∧ (i a).val < win0_1.index t a * S16128x3.size a + S16128x3.size a := by
  show i ∈ ((View.whole main_v32_0).slice (win0_1.rect t)).set ↔ _
  rw [View.set_slice_whole, Rect.mem_set_unit]
  exact Iff.rfl

/-- The same for the length array. -/
theorem mem_blk_dist (t : Fin cfg0.N) (i : S8064000x1.Idx) :
    i ∈ ((cfg0.win 2).blk t).view.set ↔ ∀ a : Fin 2, win0_2.index t a * S16128x1.size a ≤ (i a).val ∧ (i a).val < win0_2.index t a * S16128x1.size a + S16128x1.size a := by
  show i ∈ ((View.whole main_v32_1).slice (win0_2.rect t)).set ↔ _
  rw [View.set_slice_whole, Rect.mem_set_unit]
  exact Iff.rfl

/-- 500 blocks of 16128 rows are all 8064000 rows: row `r` is in the block of step `r / 16128`. -/
theorem cover_disp (i : S8064000x3.Idx) :
    ∃ t : Fin cfg0.N, (cfg0.win 1).flush t = true ∧ i ∈ ((cfg0.win 1).blk t).view.set := by
  have hN : cfg0.N = 500 := N_0
  have hi0 : (i 0).val < 8064000 := (i 0).isLt
  have hi1 : (i 1).val < 3 := (i 1).isLt
  let t : Fin cfg0.N := ⟨(i 0).val / 16128, by rw [hN]; omega⟩
  obtain ⟨-, -, e0, e1, -⟩ := index_facts t
  have ht : t.val = (i 0).val / 16128 := rfl
  refine ⟨t, flush0_1 t, ?_⟩
  rw [mem_blk_disp]
  intro a
  match a with
  | ⟨0, _⟩ => show win0_1.index t (0 : Fin 2) * 16128 ≤ (i 0).val ∧ (i 0).val < win0_1.index t (0 : Fin 2) * 16128 + 16128
              rw [e0, ht]; omega
  | ⟨1, _⟩ => show win0_1.index t (1 : Fin 2) * 3 ≤ (i 1).val ∧ (i 1).val < win0_1.index t (1 : Fin 2) * 3 + 3
              rw [e1]; omega

theorem cover_dist (i : S8064000x1.Idx) :
    ∃ t : Fin cfg0.N, (cfg0.win 2).flush t = true ∧ i ∈ ((cfg0.win 2).blk t).view.set := by
  have hN : cfg0.N = 500 := N_0
  have hi0 : (i 0).val < 8064000 := (i 0).isLt
  have hi1 : (i 1).val < 1 := (i 1).isLt
  let t : Fin cfg0.N := ⟨(i 0).val / 16128, by rw [hN]; omega⟩
  obtain ⟨-, -, -, -, e0, e1⟩ := index_facts t
  have ht : t.val = (i 0).val / 16128 := rfl
  refine ⟨t, flush0_2 t, ?_⟩
  rw [mem_blk_dist]
  intro a
  match a with
  | ⟨0, _⟩ => show win0_2.index t (0 : Fin 2) * 16128 ≤ (i 0).val ∧ (i 0).val < win0_2.index t (0 : Fin 2) * 16128 + 16128
              rw [e0, ht]; omega
  | ⟨1, _⟩ => show win0_2.index t (1 : Fin 2) * 1 ≤ (i 1).val ∧ (i 1).val < win0_2.index t (1 : Fin 2) * 1 + 1
              rw [e1]; omega

/-! ## The two output arrays after the whole run -/

/-- The displacement array ends holding the displacement of every pair of the positions argument. -/
theorem final_disp (c : Dev nD) :
    (dats m 0 c).arrAt 1 cfg0.N = Cert.Pairs.disp (m ((c : Thread nD τ).loc main_arg0)) := by
  rw [← V_main_arg0 m c]
  exact (dats m 0 c).arrAt_eq_of_cover 1 (Cert.Pairs.disp (V m c main_arg0)) (fun t _ => flushed_disp m c t) cover_disp

/-- The length array ends holding the length of every pair's displacement. -/
theorem final_dist (c : Dev nD) :
    (dats m 0 c).arrAt 2 cfg0.N = Cert.Pairs.dist (m ((c : Thread nD τ).loc main_arg0)) := by
  rw [← V_main_arg0 m c]
  exact (dats m 0 c).arrAt_eq_of_cover 2 (Cert.Pairs.dist (V m c main_arg0)) (fun t _ => flushed_dist m c t) cover_dist

/-! ## The run, read -/

/-- Every weakly fair execution of the program terminates with the two results at the displacements and lengths of all
    pairs of the positions argument, the pair table as the host operations left it, and both arguments unchanged. -/
theorem run : θ_run defs (onTc (τ := τ) (main (F := Ideal))) ⟨m, fun _ => 0, ρ⟩ fun r => ∀ c : Dev nD,
      r.2.mem ((c : Thread nD τ).loc main_v31) = V m c main_v31
      ∧ r.2.mem ((c : Thread nD τ).loc main_v32_1) = Cert.Pairs.dist (m ((c : Thread nD τ).loc main_arg0))
      ∧ r.2.mem ((c : Thread nD τ).loc main_v32_0) = Cert.Pairs.disp (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).2 main_v31 (Pipeline.mem_restRefs_of main_v31 (by decide) (by decide)),
      (Value.post2 m r h c).trans (final_dist m c),
      (Value.post1 m r h c).trans (final_disp m c),
      Value.kept_main_arg0 m r h c,
      Value.kept_main_arg1 m r h c⟩)
    (run_main m ρ)

/-! ## The table of pair indices the host operations leave beside the region -/

open Idealize.ShloMosaic.StableHlo in
/-- The pair table (both rows of atom indices) as the composed term of the host operations that compute it. -/
theorem pair_table (c : Dev nD) :
    (V m c main_v31 : S2x8064000.Idx → BitVec 32) = concatenate S2x8064000 0 [⟨S1x8064000, (broadcastInDim S1x8064000 ![1] bcast_S8064000_S1x8064000_1 (shapeCast _ (addi (broadcastInDim S2000x4032 ![0, 1] bcast_S2000x1_S2000x4032_0_1 (broadcastInDim S2000x1 ![0] bcast_S2000_S2000x1_0 (muli (iotaInDim S2000 32 0) (broadcastInDim S2000 ![] bcast_S_S2000 (constantI S_ 32 64#32))))) (broadcastInDim S2000x4032 ![0, 1] bcast_S1x4032_S2000x4032_0_1 (broadcastInDim S1x4032 ![1] bcast_S4032_S1x4032_1 (shapeCast _ (broadcastInDim S64x63 ![0] bcast_S64_S64x63_0 (iotaInDim S64 32 0)) shapeCasts_S64x63_S4032)))) shapeCasts_S2000x4032_S8064000))⟩, ⟨S1x8064000, (broadcastInDim S1x8064000 ![1] bcast_S8064000_S1x8064000_1 (shapeCast _ (addi (broadcastInDim S2000x4032 ![0, 1] bcast_S2000x1_S2000x4032_0_1 (broadcastInDim S2000x1 ![0] bcast_S2000_S2000x1_0 (muli (iotaInDim S2000 32 0) (broadcastInDim S2000 ![] bcast_S_S2000 (constantI S_ 32 64#32))))) (broadcastInDim S2000x4032 ![0, 1] bcast_S1x4032_S2000x4032_0_1 (broadcastInDim S1x4032 ![1] bcast_S4032_S1x4032_1 (shapeCast _ (addi (broadcastInDim S64x63 ![0, 1] bcast_S1x63_S64x63_0_1 (broadcastInDim S1x63 ![1] bcast_S63_S1x63_1 (iotaInDim S63 32 0))) (extui 32 (cmpi .sge (broadcastInDim S64x63 ![0, 1] bcast_S1x63_S64x63_0_1 (broadcastInDim S1x63 ![1] bcast_S63_S1x63_1 (iotaInDim S63 32 0))) (broadcastInDim S64x63 ![0, 1] bcast_S64x1_S64x63_0_1 (broadcastInDim S64x1 ![0] bcast_S64_S64x1_0 (iotaInDim S64 32 0)))) natLt_1_32)) shapeCasts_S64x63_S4032)))) shapeCasts_S2000x4032_S8064000))⟩] concatenates_S1x8064000_S1x8064000_S2x8064000_d0 := by
  dsimp only [Gen.V, Gen.hostOps0]
  after_results_simp
  rfl

end Cert.KernelIdeal.Arrays

end
-- ==== Proof.LibGatherRows.lean ====
/-
  A gather of rows, read at one element.

  The host's gather `x[idx]` along the leading axis reads, for each result row, one index word; the word is read as a
  signed integer and clamped into `[0, N − 1]` (so that the slice of one row fits in the operand), and the result row is
  the operand's row at that clamped position. For the two layouts such a lookup lowers to this file computes the operand
  index a result element reads:

  * rows: operand `[N, C]`, one index word per result row (start indices `[E, 1]`), result `[E, C]`, slices of one whole
    row. Result element `(e, k)` is the operand at `(clamp (idx e), k)`.
  * scalars: operand `[N]`, start indices `[E, 1]`, result `[E]`, slices of one element. Result element `e` is the
    operand at `clamp (idx e)`.

  Here `clamp z = min (toNat z) (N − 1)`: a negative word reads row 0, a word past the end reads the last row. The
  element type is arbitrary: a gather only moves elements.
-/
import Idealize.ShloMosaic.PureOps.Ideal
import Idealize.ShloMosaic.Lib.ValueIdx

noncomputable section

namespace Idealize.ShloMosaic.GatherAt

open Idealize.ShloMosaic Idealize.ShloMosaic.ValueIdx

/-! ## Rows: operand `[N, C]`, start indices `[E, 1]`, result `[E, C]` -/

section Rows
variable {α : Type} {N C E w : Nat}

/-- The dimension numbers of a row gather: the result's axis 1 is the offset axis and reads the operand's axis 1 (a whole
    row is one slice), the operand's axis 0 is collapsed and is the one the index word addresses, the index vector is the
    start indices' axis 1 (of extent one). -/
abbrev rowGDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the addressed axis the slice starts at the result row's index word, read signed and clamped into `[0, N − 1]`. -/
theorem rowGDims_start0 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 0 = min (idx (ix2 (j 0) ⟨0, Nat.one_pos⟩)).toInt.toNat (N - 1) := by
  unfold GatherDims.start
  rw [dif_pos (show (0 : Fin 2) ∈ (rowGDims N C E wf).startIndexMap from List.mem_singleton.mpr rfl)]
  have hsi : (rowGDims N C E wf).siIdx j ⟨List.idxOf (0 : Fin 2) (rowGDims N C E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the row's own axis the slice starts at zero. -/
theorem rowGDims_start1 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 1 = 0 := by
  unfold GatherDims.start
  rw [dif_neg (show ¬ (1 : Fin 2) ∈ (rowGDims N C E wf).startIndexMap from by simp)]

/-- The addressed axis is collapsed: it has no offset coordinate. -/
theorem rowGDims_off0 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 0 = 0 :=
  GatherDims.offCoord_eq_zero _ _ _ (fun h => ((GatherDims.mem_sKept _ _).mp h).1 (List.mem_singleton.mpr rfl))

/-- The offset coordinate on the operand's axis 1 is the result's column. -/
theorem rowGDims_off1 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 1 = (j 1).val := by
  unfold GatherDims.offCoord
  rw [dif_pos (show (1 : Fin 2) ∈ (rowGDims N C E wf).sKept from by simp [GatherDims.sKept, Shape.kept])]
  rfl

/-- THE ROW GATHER READ AT `(e, k)`: the operand at row "index word of `e`, read signed and clamped into
    `[0, N − 1]`", column `k`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGDims N C E wf).start (ix2 e k) idx 0 + (rowGDims N C E wf).batchCoord (ix2 e k) 0
      + (rowGDims N C E wf).offCoord (ix2 e k) 0 = _
    rw [GatherDims.batchCoord_eq_zero _ _ _ List.not_mem_nil, rowGDims_off0, rowGDims_start0]
    rfl
  | ⟨1, _⟩ =>
    show (rowGDims N C E wf).start (ix2 e k) idx 1 + (rowGDims N C E wf).batchCoord (ix2 e k) 1
      + (rowGDims N C E wf).offCoord (ix2 e k) 1 = _
    rw [GatherDims.batchCoord_eq_zero _ _ _ List.not_mem_nil, rowGDims_off1, rowGDims_start1]
    simp only [Nat.add_zero, Nat.zero_add]
    rfl

end Rows

/-! ## Scalars: operand `[N]`, start indices `[E, 1]`, result `[E]` -/

section Scalars
variable {α : Type} {N E w : Nat}

/-- The dimension numbers of a scalar gather: no offset axis (a slice is one element); the operand's one axis is collapsed
    and addressed by the index word; the index vector is the start indices' axis 1 (of extent one). -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The slice starts at the result element's index word, read signed and clamped into `[0, N − 1]`. -/
theorem vecGDims_start0 (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (vecGDims N E wf).start j idx 0 = min (idx (ix2 (j 0) ⟨0, Nat.one_pos⟩)).toInt.toNat (N - 1) := by
  unfold GatherDims.start
  rw [dif_pos (show (0 : Fin 1) ∈ (vecGDims N E wf).startIndexMap from List.mem_singleton.mpr rfl)]
  have hsi : (vecGDims N E wf).siIdx j ⟨List.idxOf (0 : Fin 1) (vecGDims N E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- THE SCALAR GATHER READ AT `e`: the operand at "index word of `e`, read signed and clamped into `[0, N − 1]`". -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGDims N E wf).start (ix1 e) idx 0 + (vecGDims N E wf).batchCoord (ix1 e) 0
    + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vecGDims_start0]
  rfl

end Scalars

end Idealize.ShloMosaic.GatherAt

end
-- ==== Proof.RefValue.lean ====
/-
  The reference program's two float results, as functions of the array of positions.

  The reference first builds, with integer arithmetic only, the table of all ordered pairs of distinct atoms inside equal
  molecules: for the pair numbered p, the row of its first atom and the row of its second atom in the array of positions.
  It then looks both rows up, subtracts the first atom's position from the second's, and takes the Euclidean length of
  the difference. This file reads that computation one entry at a time:

  * every entry of the two tables is a natural number below 128000, stored in a 32-bit word; at that size no sum or
    product wraps and the signed comparisons are the comparisons of the numbers, so entry p of the first-atom table is
    `atomI p` and entry p of the second-atom table is `atomJ p`;
  * stacking the two tables as the rows of one array and slicing the rows off again changes nothing, and neither does the
    lookup's adjustment of negative indices (no entry is negative) nor its clamping into the array (every entry is a row);
  * hence the difference of the two lookups at (p, c) is `disp x (p, c)`, and the square root of the sum over the three
    coordinates of its square (a sum that starts from zero) is `dist x (p, 0)`.
-/
import proofs.«128119_j54932631716418_1_alg».proof.Proof.Gen.ReferenceIdeal.Read
import proofs.«128119_j54932631716418_1_alg».proof.Proof.Spec
import proofs.«128119_j54932631716418_1_alg».proof.Proof.LibGatherRows
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Pairs

variable {F : FTy → Type} [FloatOps F]

/-! ## Words

Every index word of the pair table is a natural number below 128000, far below 2^31: on such words the signed
comparisons are the comparisons of the numbers, and sums and products do not wrap. -/

/-- A word below 2^31 read as a signed integer is the number itself. -/
theorem toInt_small {a : ℕ} (ha : a < 2 ^ 31) : (BitVec.ofNat 32 a).toInt = a := by
  rw [BitVec.toInt_eq_toNat_of_lt (by rw [BitVec.toNat_ofNat]; omega), BitVec.toNat_ofNat]; omega

/-- Signed "at most" on two words below 2^31 is "at most" on the numbers. -/
theorem sle_ofNat {a b : ℕ} (ha : a < 2 ^ 31) (hb : b < 2 ^ 31) :
    (BitVec.ofNat 32 a).sle (BitVec.ofNat 32 b) = decide (a ≤ b) := by
  rw [BitVec.sle_eq_decide, toInt_small ha, toInt_small hb]
  simp

/-- A word below 2^31 is not negative. -/
theorem slt_ofNat_zero {a : ℕ} (ha : a < 2 ^ 31) : (BitVec.ofNat 32 a).slt 0#32 = false := by
  rw [BitVec.slt_eq_decide, toInt_small ha]
  simp

/-- The reference's "k + (k ≥ i)" on words is the k-th atom other than i. -/
theorem word_nb {i k : ℕ} (hi : i < 64) (hk : k < 63) :
    IntOp.addi (BitVec.ofNat 32 k)
      ((IntOp.cmpi .sge (BitVec.ofNat 32 k) (BitVec.ofNat 32 i)).setWidth 32) = BitVec.ofNat 32 (nb i k) := by
  unfold IntOp.addi IntOp.cmpi
  show BitVec.ofNat 32 k + (BitVec.ofBool ((BitVec.ofNat 32 i).sle (BitVec.ofNat 32 k))).setWidth 32 = _
  rw [sle_ofNat (by omega) (by omega)]
  by_cases h : i ≤ k
  · rw [decide_eq_true h, nb_of_le h, BitVec.ofNat_add]; rfl
  · rw [decide_eq_false h, nb_of_lt (by omega)]
    show BitVec.ofNat 32 k + 0#32 = _
    rw [BitVec.add_zero]

/-- The gather's negative-index fix-up leaves a word below 2^31 alone. -/
theorem select_nonneg {a : ℕ} (ha : a < 2 ^ 31) (y : BitVec 32) :
    Scalar.select (IntOp.cmpi .slt (BitVec.ofNat 32 a) 0#32) y (BitVec.ofNat 32 a) = BitVec.ofNat 32 a := by
  unfold IntOp.cmpi
  show Scalar.select (BitVec.ofBool ((BitVec.ofNat 32 a).slt 0#32)) y _ = _
  rw [slt_ofNat_zero ha]
  rfl

/-- A row number below 128000, as a word, read signed and clamped into the array, is the row number. -/
theorem clamp_ofNat {n : ℕ} (hn : n < 128000) : min (BitVec.ofNat 32 n).toInt.toNat (128000 - 1) = n := by
  rw [toInt_small (by omega)]
  simp only [Int.toNat_natCast]
  omega

/-! ## The pair table, entry by entry -/

/-- Local table of first atoms: entry q is q / 63. -/
theorem v2_val (i : S4032.Idx) : val_main_v2 (F := F) i = BitVec.ofNat 32 ((i 0).val / 63) := by
  rw [val_main_v2_apply, val_main_v1_apply, val_main_v0_apply]

/-- Local table of second atoms: entry q is the (q mod 63)-th atom other than q / 63. -/
theorem v14_val (i : S4032.Idx) :
    val_main_v14 (F := F) i = BitVec.ofNat 32 (nb ((i 0).val / 63) ((i 0).val % 63)) := by
  rw [val_main_v14_apply, val_main_v13_apply, val_main_v12_apply, val_main_v4_apply, val_main_v3_apply,
    val_main_v11_apply, val_main_v10_apply, val_main_v8_apply, val_main_v5_apply, val_main_v3_apply,
    val_main_v9_apply, val_main_v7_apply, val_main_v6_apply]
  have h0 : (i 0).val < 4032 := (i 0).isLt
  exact word_nb (i := (i 0).val / 63) (k := (i 0).val % 63) (by omega) (by omega)

/-- The molecule's first row: 64 times the molecule's number. -/
theorem v18_val (i : S2000x1.Idx) : val_main_v18 (F := F) i = BitVec.ofNat 32 ((i 0).val * 64) := by
  rw [val_main_v18_apply, val_main_v17_apply, val_main_v15_apply, val_main_v16_apply, val_main_c_apply]
  unfold IntOp.muli
  rw [BitVec.ofNat_mul]

/-- The table of first atoms: entry p is the row of pair p's first atom. -/
theorem v23_val (i : S8064000.Idx) : val_main_v23 (F := F) i = BitVec.ofNat 32 (atomI (i 0).val) := by
  rw [val_main_v23_apply, val_main_v22_apply, val_main_v20_apply, v18_val, val_main_v21_apply,
    val_main_v19_apply, v2_val]
  unfold IntOp.addi atomI
  rw [BitVec.ofNat_add]

/-- The table of second atoms: entry p is the row of pair p's second atom. -/
theorem v28_val (i : S8064000.Idx) : val_main_v28 (F := F) i = BitVec.ofNat 32 (atomJ (i 0).val) := by
  rw [val_main_v28_apply, val_main_v27_apply, val_main_v25_apply, v18_val, val_main_v26_apply,
    val_main_v24_apply, v14_val]
  unfold IntOp.addi atomJ
  rw [BitVec.ofNat_add]

/-! ## Through the stacked table and back

The two tables are stacked as the two rows of one array (first atoms in row 0, second atoms in row 1) and each row
is sliced off again. -/

/-- Row 1 of the stacked table, flattened: the table of second atoms. -/
theorem v33_val (i : S8064000.Idx) : val_main_v33 (F := F) i = BitVec.ofNat 32 (atomJ (i 0).val) := by
  have h0 : (i 0).val < 8064000 := (i 0).isLt
  rw [val_main_v33_apply, val_main_v32_apply]
  unfold val_main_v31
  rw [concatenate_pair_apply_right (t := S2x8064000) (s₁ := S1x8064000) (s₂ := S1x8064000) (0 : Fin 2)
    (val_main_v29 (F := F)) (val_main_v30 (F := F)) concatenates_S1x8064000_S1x8064000_S2x8064000_d0
    (idx_main_v32 (idx_main_v33 i)) rfl rfl (idx_main_v33 i)
    (fun b hb => by
      match b with
      | ⟨0, _⟩ => exact absurd rfl hb
      | ⟨1, _⟩ => rfl)
    (by rfl)]
  rw [val_main_v30_apply, v28_val]
  show BitVec.ofNat 32 (atomJ ((i 0).val % 8064000)) = _
  rw [Nat.mod_eq_of_lt h0]

/-- Row 0 of the stacked table, flattened: the table of first atoms. -/
theorem v42_val (i : S8064000.Idx) : val_main_v42 (F := F) i = BitVec.ofNat 32 (atomI (i 0).val) := by
  have h0 : (i 0).val < 8064000 := (i 0).isLt
  rw [val_main_v42_apply, val_main_v41_apply]
  unfold val_main_v31
  rw [concatenate_pair_apply_left (t := S2x8064000) (s₁ := S1x8064000) (s₂ := S1x8064000) (0 : Fin 2)
    (val_main_v29 (F := F)) (val_main_v30 (F := F)) concatenates_S1x8064000_S1x8064000_S2x8064000_d0
    (idx_main_v41 (idx_main_v42 i)) rfl (idx_main_v42 i)
    (fun b => by
      match b with
      | ⟨0, _⟩ => rfl
      | ⟨1, _⟩ => rfl)]
  rw [val_main_v29_apply, v23_val]
  show BitVec.ofNat 32 (atomI ((i 0).val % 8064000)) = _
  rw [Nat.mod_eq_of_lt h0]

/-- The index words the first gather reads: the second atoms' rows (no word is negative). -/
theorem v38_val (i : S8064000.Idx) : val_main_v38 (F := F) i = BitVec.ofNat 32 (atomJ (i 0).val) := by
  have h0 : (i 0).val < 8064000 := (i 0).isLt
  have hJ := atomJ_lt h0
  rw [val_main_v38_apply, val_main_v35_apply, v33_val, val_main_v34_apply, val_main_c_0_apply]
  exact select_nonneg (by omega) _

/-- The index words the second gather reads: the first atoms' rows (no word is negative). -/
theorem v47_val (i : S8064000.Idx) : val_main_v47 (F := F) i = BitVec.ofNat 32 (atomI (i 0).val) := by
  have h0 : (i 0).val < 8064000 := (i 0).isLt
  have hI := atomI_lt h0
  rw [val_main_v47_apply, val_main_v44_apply, v42_val, val_main_v43_apply, val_main_c_2_apply]
  exact select_nonneg (by omega) _

/-! ## The gathers and the two results -/

/-- The generated record of the two gathers is the row gather's dimension numbers. -/
theorem gather_rec_eq : gather_S128000x3_S8064000x1_S8064000x3_1_0_n_n_0_1_13 =
    GatherAt.rowGDims 128000 3 8064000 gather_S128000x3_S8064000x1_S8064000x3_1_0_n_n_0_1_13_wf := rfl

/-- The first gather at (p, c): the position of pair p's second atom, coordinate c. -/
theorem v40_val (x : (⟨S128000x3, .f32⟩ : BufTy).Contents (Elt F)) (e : Fin 8064000) (k : Fin 3) :
    val_main_v40 (F := F) x (ix2 e k) = x (ix2 ⟨atomJ e.val, atomJ_lt e.isLt⟩ k) := by
  have hrow : min (val_main_v39 (F := F) (ix2 e ⟨0, Nat.one_pos⟩)).toInt.toNat (128000 - 1) = atomJ e.val := by
    rw [val_main_v39_apply, v38_val]
    exact clamp_ofNat (atomJ_lt e.isLt)
  unfold val_main_v40
  rw [gather_rec_eq, GatherAt.rowGather_apply (by norm_num) _ x _ e k]
  exact congrArg (fun r : Fin 128000 => x (ix2 r k)) (Fin.ext hrow)

/-- The second gather at (p, c): the position of pair p's first atom, coordinate c. -/
theorem v49_val (x : (⟨S128000x3, .f32⟩ : BufTy).Contents (Elt F)) (e : Fin 8064000) (k : Fin 3) :
    val_main_v49 (F := F) x (ix2 e k) = x (ix2 ⟨atomI e.val, atomI_lt e.isLt⟩ k) := by
  have hrow : min (val_main_v48 (F := F) (ix2 e ⟨0, Nat.one_pos⟩)).toInt.toNat (128000 - 1) = atomI e.val := by
    rw [val_main_v48_apply, v47_val]
    exact clamp_ofNat (atomI_lt e.isLt)
  unfold val_main_v49
  rw [gather_rec_eq, GatherAt.rowGather_apply (by norm_num) _ x _ e k]
  exact congrArg (fun r : Fin 128000 => x (ix2 r k)) (Fin.ext hrow)

/-- The reference's third result is the displacement of every pair. -/
theorem ref_disp (x : (⟨S128000x3, .f32⟩ : BufTy).Contents (Elt Ideal)) :
    Cert.ReferenceIdeal.Read.val_main_v50 (F := Ideal) x = Cert.Pairs.disp x := by
  funext j
  obtain ⟨e, k, rfl⟩ : ∃ (e : Fin 8064000) (k : Fin 3), j = ix2 e k := ⟨j 0, j 1, eq_ix2 j⟩
  rw [val_main_v50_apply, v40_val, v49_val]
  rfl

/-- The reference's second result is the length of every pair's displacement. -/
theorem ref_dist (x : (⟨S128000x3, .f32⟩ : BufTy).Contents (Elt Ideal)) :
    Cert.ReferenceIdeal.Read.val_main_v51 (F := Ideal) x = Cert.Pairs.dist x := by
  funext j
  obtain ⟨e, z, rfl⟩ : ∃ (e : Fin 8064000) (z : Fin 1), j = ix2 e z := ⟨j 0, j 1, eq_ix2 j⟩
  rw [val_main_v51_apply, val_main_call0_v2_apply, val_main_call0_v1_apply, val_main_call0_cst_apply]
  rw [Ideal.hostUnary_sqrt_def, Ideal.ofBits_def, Ideal.ofBits_zero_f32, zero_add]
  unfold Cert.Pairs.dist
  refine congrArg Ideal.sqrt (Finset.sum_congr rfl fun c _ => ?_)
  rw [val_main_call0_v0_apply, ref_disp]
  rfl

end Cert.ReferenceIdeal.RefValue

end
-- ==== Proof.lean ====
/-
  Every ordered pair of atoms inside a molecule, its displacement and its length: the tiled program against the plain one.

  Both programs return three arrays for 2000 molecules of 64 consecutive atoms: the table of the two atom indices of every
  ordered pair (i, j), j ≠ i, inside a molecule; the displacement position(j) − position(i) of every pair; and the length of
  every displacement. The table comes out of the same integer index arithmetic in both programs, so it is the same array.
  For the other two, the tiled program handles four molecules per grid step: for each atom of a molecule it takes the rows
  above and below that atom and subtracts the atom's own row, joins the 64 chunks of a molecule and the four molecules of a
  step, and takes the square root of the sum of the squared coordinates of each row; the 500 steps' blocks tile the two
  arrays. The plain program looks both atoms of every pair up in the positions through the index table, subtracts, and
  takes the same square root of the same sum. Read over the extended reals both are, index by index, the functions
  `Cert.Pairs.disp` and `Cert.Pairs.dist` of the positions (Proof/Spec.lean): Proof/KernelArrays.lean (over Proof/KernelRows.lean,
  Proof/RowChunks.lean and Proof/LibUniformConcat.lean) says so for the tiled program, Proof/RefValue.lean (over
  Proof/LibGatherRows.lean) for the plain one. No law of arithmetic is needed beyond reading a sum of three terms that
  starts from zero as the sum itself, so the finiteness of the inputs is never used.
-/
import proofs.«128119_j54932631716418_1_alg».proof.Defs
import proofs.«128119_j54932631716418_1_alg».proof.Proof.Gen.Kernel
import proofs.«128119_j54932631716418_1_alg».proof.Proof.Gen.Kernel.Skeleton
import proofs.«128119_j54932631716418_1_alg».proof.Proof.Gen.Kernel.Launch
import proofs.«128119_j54932631716418_1_alg».proof.Proof.Gen.Kernel.Points
import proofs.«128119_j54932631716418_1_alg».proof.Proof.Gen.Kernel.Frame
import proofs.«128119_j54932631716418_1_alg».proof.Proof.Gen.KernelIdeal
import proofs.«128119_j54932631716418_1_alg».proof.Proof.Gen.KernelIdeal.Skeleton
import proofs.«128119_j54932631716418_1_alg».proof.Proof.Gen.KernelIdeal.Launch
import proofs.«128119_j54932631716418_1_alg».proof.Proof.Gen.KernelIdeal.Points
import proofs.«128119_j54932631716418_1_alg».proof.Proof.Gen.KernelIdeal.Frame
import proofs.«128119_j54932631716418_1_alg».proof.Proof.Gen.ReferenceIdeal
import proofs.«128119_j54932631716418_1_alg».proof.Proof.Gen.Pre_finite_inputs
import proofs.«128119_j54932631716418_1_alg».proof.Proof.Gen.KernelIdeal.Value
import proofs.«128119_j54932631716418_1_alg».proof.Proof.Gen.ReferenceIdeal.Run
import proofs.«128119_j54932631716418_1_alg».proof.Proof.Gen.ReferenceIdeal.Read
import proofs.«128119_j54932631716418_1_alg».proof.Proof.KernelArrays
import proofs.«128119_j54932631716418_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's run, keeping only that its arguments end unchanged. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- Nothing was rewritten between the tiled program and its reading over the extended reals. -/
theorem preserves : Cert.preserves_Kernel_KernelIdeal := trivial

/-- The table of pair indices: the tiled program computes it beside its grid with the very operations of the plain
    program, so it holds the same words. -/
theorem pair_table_eq (m : (ℓ : Loc Cert.KernelIdeal.nD Cert.KernelIdeal.τ Cert.KernelIdeal.sig) → Buf (Elt Ideal) ℓ)
    (c : Dev Cert.KernelIdeal.nD) :
    Cert.KernelIdeal.Gen.V m c Cert.KernelIdeal.main_v31 = Cert.ReferenceIdeal.Read.val_main_v31 (F := Ideal) :=
  (Cert.KernelIdeal.Arrays.pair_table m c).trans (Cert.ReferenceIdeal.Read.val_main_v31_eq (F := Ideal))

/-- From memories that agree on the positions, both programs end with the pair table, the lengths and the displacements
    of all pairs: the same three arrays. -/
theorem algebraic : Cert.algebraic_KernelIdeal_ReferenceIdeal := by
  intro m ρ m' ρ' _ hagree
  refine ⟨fun _ => Cert.ReferenceIdeal.Read.val_main_v31 (F := Ideal),
    fun c => Cert.Pairs.dist (m ((c.tc : Thread Cert.KernelIdeal.nD Cert.KernelIdeal.τ).loc Cert.KernelIdeal.main_arg0)),
    fun c => Cert.Pairs.disp (m ((c.tc : Thread Cert.KernelIdeal.nD Cert.KernelIdeal.τ).loc Cert.KernelIdeal.main_arg0)),
    ?_, ?_⟩
  · exact (θ_run Cert.KernelIdeal.defs _ _).mono (fun r h c => ⟨(h c).1.trans (pair_table_eq m c), (h c).2⟩)
      (Cert.KernelIdeal.Arrays.run m ρ)
  · refine (θ_run Cert.ReferenceIdeal.defs _ _).mono (fun r h c =>
      ⟨(h c).1.trans (Cert.ReferenceIdeal.Read.val_main_v31_eq (F := Ideal)), ?_, ?_, (h c).2.2.2.1, (h c).2.2.2.2⟩)
      (Cert.ReferenceIdeal.Value.run (F := Ideal) m' ρ')
    · rw [(h c).2.1, Cert.ReferenceIdeal.Read.val_main_v51_eq, Cert.ReferenceIdeal.RefValue.ref_dist, (hagree c).1]
    · rw [(h c).2.2.1, Cert.ReferenceIdeal.Read.val_main_v50_eq, Cert.ReferenceIdeal.RefValue.ref_disp, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
